-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x1x2048x2048 : Shape := ⟨4, ![4, 1, 2048, 2048]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts]

def fn_part1 {F : FTy → Type} [FloatOps F] (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  main_v18

def fn {F : FTy → Type} [FloatOps F] (main_arg0 : FVec F S4x12x2048x64 .f32) (main_arg1 : FVec F S4x12x2048x64 .f32) (main_arg2 : FVec F S4x12x2048x64 .f32) (main_arg3 : FVec F S4x1x2048x2048 .f32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_v13 main_v16
-- ==== Kernel.lean ====
abbrev S4x12x2048x64 : Shape := ⟨4, ![4, 12, 2048, 64]⟩
abbrev S4x1x2048x2048 : Shape := ⟨4, ![4, 1, 2048, 2048]⟩
abbrev S48x2048x64 : Shape := ⟨3, ![48, 2048, 64]⟩
abbrev S4x2048x2048 : Shape := ⟨3, ![4, 2048, 2048]⟩
abbrev S48x2048x1 : Shape := ⟨3, ![48, 2048, 1]⟩
abbrev S1x1024x64 : Shape := ⟨3, ![1, 1024, 64]⟩
abbrev S1x1024x1024 : Shape := ⟨3, ![1, 1024, 1024]⟩
abbrev S1x1024x1 : Shape := ⟨3, ![1, 1024, 1]⟩
abbrev S1024x1 : Shape := ⟨2, ![1024, 1]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S48x2048x2048 : Shape := ⟨3, ![48, 2048, 2048]⟩
abbrev S4x12x2048x2048 : Shape := ⟨4, ![4, 12, 2048, 2048]⟩

abbrev nBuf : Space → Nat
  | .hbm => 13
  | .vmem => 24
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x1x2048x2048, .f32⟩
  | .hbm, ⟨4, _⟩ => ⟨S48x2048x64, .f32⟩
  | .hbm, ⟨5, _⟩ => ⟨S48x2048x64, .f32⟩
  | .hbm, ⟨6, _⟩ => ⟨S48x2048x64, .f32⟩
  | .hbm, ⟨7, _⟩ => ⟨S4x2048x2048, .f32⟩
  | .hbm, ⟨8, _⟩ => ⟨S48x2048x1, .f32⟩
  | .hbm, ⟨9, _⟩ => ⟨S48x2048x2048, .f32⟩
  | .hbm, ⟨10, _⟩ => ⟨S48x2048x64, .f32⟩
  | .hbm, ⟨11, _⟩ => ⟨S4x12x2048x64, .f32⟩
  | .hbm, ⟨12, _⟩ => ⟨S4x12x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1, .f32⟩
  | .local _ .vmem, ⟨7, _⟩ => ⟨S1x1024x1, .f32⟩
  | .local _ .vmem, ⟨8, _⟩ => ⟨S1024x1, .f32⟩
  | .local _ .vmem, ⟨9, _⟩ => ⟨S1x1024x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | .local _ .vmem, ⟨14, _⟩ => ⟨S1x1024x64, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1, .f32⟩
  | .local _ .vmem, ⟨18, _⟩ => ⟨S1x1024x1, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x64, .f32⟩
  | .local _ .vmem, ⟨22, _⟩ => ⟨S1x1024x64, .f32⟩
  | .local _ .vmem, ⟨23, _⟩ => ⟨S1024x64, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨3, ![48, 2, 2], ![false, false, false]⟩

def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![48, 2, 2], ![false, false, false]⟩

def k1_cond2 (i : grid1.Coords) : BitVec 1 :=
  let arg2 : BitVec 32 := BitVec.ofNat 32 (i 2).val
  let c1_i32 : BitVec 32 := 1#32
  let v36 : BitVec 1 := Scalar.cmpi .eq arg2 c1_i32
  let v37 : BitVec 32 := Scalar.extui v36
  let c0_i32_25 : BitVec 32 := 0#32
  let v38 : BitVec 1 := Scalar.cmpi .ne v37 c0_i32_25
  v38

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x12x2048x64_S48x2048x64 : S4x12x2048x64.ShapeCasts S48x2048x64
  shapeCasts_S4x1x2048x2048_S4x2048x2048 : S4x1x2048x2048.ShapeCasts S4x2048x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x1024 : S1024x1.Broadcasts S1024x1024
  shapeCasts_S1024x1024_S1x1024x1024 : S1024x1024.ShapeCasts S1x1024x1024
  shapeCasts_S1024x64_S1x1024x64 : S1024x64.ShapeCasts S1x1024x64
  shapeCasts_S48x2048x64_S4x12x2048x64 : S48x2048x64.ShapeCasts S4x12x2048x64
  shapeCasts_S48x2048x2048_S4x12x2048x2048 : S48x2048x2048.ShapeCasts S4x12x2048x2048
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S48x2048x64.size a
  hwx0_0 : ∀ i : grid0.Coords, EltTy.bits .f32 = 32 ∨ (Rect.block (s := S48x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S48x2048x64.size a
  hwx0_1 : ∀ i : grid0.Coords, EltTy.bits .f32 = 32 ∨ (Rect.block (s := S48x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x2048x2048.size a
  hwx0_2 : ∀ i : grid0.Coords, EltTy.bits .f32 = 32 ∨ (Rect.block (s := S4x2048x2048) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S48x2048x1.size a
  hwx0_3 : ∀ i : grid0.Coords, EltTy.bits .f32 = 32 ∨ (Rect.block (s := S48x2048x1) S1x1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S48x2048x64.size a
  hwx1_0 : ∀ i : grid1.Coords, EltTy.bits .f32 = 32 ∨ (Rect.block (s := S48x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S48x2048x64.size a
  hwx1_1 : ∀ i : grid1.Coords, EltTy.bits .f32 = 32 ∨ (Rect.block (s := S48x2048x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S48x2048x64.size a
  hwx1_2 : ∀ i : grid1.Coords, EltTy.bits .f32 = 32 ∨ (Rect.block (s := S48x2048x64) S1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x2048.size a
  hwx1_3 : ∀ i : grid1.Coords, EltTy.bits .f32 = 32 ∨ (Rect.block (s := S4x2048x2048) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S48x2048x1.size a
  hwx1_4 : ∀ i : grid1.Coords, EltTy.bits .f32 = 32 ∨ (Rect.block (s := S48x2048x1) S1x1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S48x2048x2048.size a
  hwx1_5 : ∀ i : grid1.Coords, EltTy.bits .f32 = 32 ∨ (Rect.block (s := S48x2048x2048) S1x1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x64.size a ≤ S48x2048x64.size a
  hwx1_6 : ∀ i : grid1.Coords, EltTy.bits .f32 = 32 ∨ (Rect.block (s := S48x2048x64) S1x1024x64.size (cc1_transform_6 i) (hinb1_6 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S1x1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S1x1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x12x2048x64 : Shape := ⟨4, ![4, 12, 2048, 64]⟩
abbrev S4x1x2048x2048 : Shape := ⟨4, ![4, 1, 2048, 2048]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x1x2048x2048, .f32⟩
  | .hbm, ⟨4, _⟩ => ⟨S4x12x2048x2048, .f32⟩
  | .hbm, ⟨5, _⟩ => ⟨S_, .f32⟩
  | .hbm, ⟨6, _⟩ => ⟨S4x12x2048x2048, .f32⟩
  | .hbm, ⟨7, _⟩ => ⟨S4x12x2048x2048, .f32⟩
  | .hbm, ⟨8, _⟩ => ⟨S4x12x2048x2048, .f32⟩
  | .hbm, ⟨9, _⟩ => ⟨S4x12x2048x2048, .f32⟩
  | .hbm, ⟨10, _⟩ => ⟨S4x12x2048x2048, .f32⟩
  | .hbm, ⟨11, _⟩ => ⟨S_, .f32⟩
  | .hbm, ⟨12, _⟩ => ⟨S4x12x2048, .f32⟩
  | .hbm, ⟨13, _⟩ => ⟨S4x12x2048x1, .f32⟩
  | .hbm, ⟨14, _⟩ => ⟨S_, .f32⟩
  | .hbm, ⟨15, _⟩ => ⟨S4x12x2048x1, .f32⟩
  | .hbm, ⟨16, _⟩ => ⟨S4x12x2048x1, .f32⟩
  | .hbm, ⟨17, _⟩ => ⟨S4x12x2048x2048, .f32⟩
  | .hbm, ⟨18, _⟩ => ⟨S4x12x2048x2048, .f32⟩
  | .hbm, ⟨19, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  bcast_S4x1x2048x2048_S4x12x2048x2048_0_1_2_3 : S4x1x2048x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S4x12x2048_S4x12x2048x1_0_1_2 : S4x12x2048.BroadcastsInDim S4x12x2048x1 (![0, 1, 2] : Fin 3 → Fin S4x12x2048x1.rank)
  bcast_S_S4x12x2048x1 : S_.BroadcastsInDim S4x12x2048x1 (![] : Fin 0 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.K.R0Defs.lean ====
/-
  The row-sum kernel (the first of the two calls), seen from one grid point: the blocks of its three inputs, the two
  conditions its body branches on (first key block of a query row: clear the accumulator; last key block: emit the row
  sums), where its output window is idle, and the scratch accumulator it carries from one key block to the next.
-/
import proofs.«146835_j764504179346_1_alg».proof.Proof.Gen.Kernel.Launch
import proofs.«146835_j764504179346_1_alg».proof.Proof.Gen.Kernel.Skeleton
import proofs.«146835_j764504179346_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two conditions, over the grid (48 rows of heads × 2 query blocks × 2 key blocks, key block fastest) -/

/-- "This is the first key block": the accumulator is cleared. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last key block": the row sums are emitted. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first key block nothing is stored into the output window, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a last key block the output window is stored into. -/
theorem liveAt0_3_B : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1x1024x1 .f32 := (Memref.whole cc0_stg3_0 : Memref sig .tc .vmem S1x1024x1 .f32).view
abbrev ms0_0 (t : Fin cfg0.N) : Memref sig .tc .vmem S1x1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0
abbrev VS0_0 : View sig .tc .vmem S1024x1 .f32 := scM0_0.view

/-- The core's other scoped buffers (the second call's staging buffers and accumulator), each at some contents:
    the row-sum kernel never touches them. -/
abbrev others0 (c : Dev nD) : sProp 𝕄 :=
  Pipeline.scopedRestBut (Ix := Unit) (Name := ℕ) (U := UR sig nD τ) (Lvl := ℕ) (Val := Elt F) spec0 c [cc0_scratch0]

/-- What the call's invariant holds when nothing is said of the accumulator: the accumulator at some contents, the
    other scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Fr

end
-- ==== Proof.K.R0RunA.lean ====
/-
  The row-sum kernel's body at a FIRST key block: the accumulator, whatever it held, is cleared and then holds this
  block's row sums; nothing is stored into the output window.
-/
import proofs.«146835_j764504179346_1_alg».proof.Proof.K.R0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the output window's buffer at contents handed back untouched,
    the accumulator at anything — the body runs to the continuation holding the inputs as they were and the accumulator
    with its stores written; the stores are found by running the body. -/
noncomputable def kernelRun0_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) :
    Σ' (L3 : List (View.Piece (Elt F) S1x1024x1 .f32)), { LS0 : List (View.Piece (Elt F) S1024x1 .f32) //
      ∀ (xi3 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R0RunB.lean ====
/-
  The row-sum kernel's body at a LAST key block: this block's row sums are added to what the accumulator held, and
  the total is stored into the output window.
-/
import proofs.«146835_j764504179346_1_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the output window's buffer at anything, the accumulator at
    what the point before left — the body runs to the continuation holding the inputs as they were and the output's
    buffer and the accumulator with their stores written; the stores are found by running the body. -/
noncomputable def kernelRun0_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) :
    Σ' (L3 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨?_, ?_, fun E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R0Frame.lean ====
/-
  The row-sum call, point by point. After an even point (first key block) the accumulator holds that block's row
  sums; after the odd point that follows (last key block) it holds the sum of both blocks, and so does the output
  window's buffer, which is then written back. Between the two points nothing else touches the accumulator, so the
  call's invariant carries it at exactly these contents.
-/
import proofs.«146835_j764504179346_1_alg».proof.Proof.K.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first key block nothing is stored into the output window: a placeholder nothing consults. -/
def out0_A_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) : Vec F S1x1024x1 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator at a first key block cover it. -/
theorem scover0_A_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) (y : S1024x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1.size (by sl_kernel_rfl) y

/-- What a first key block leaves in the accumulator. -/
def sout0_A_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) : Vec F S1024x1 .f32 :=
  VS0_0.read (Elt F) (VS0_0.writes (Elt F) VS0_0.junk (kernelRun0_A c i arg3 harg3 arg4 harg4 arg5 harg5 arg6 harg6 arg7 harg7 hc0 hc1 x0 x1 x2).2.1)

/-- The store into the output window at a last key block covers its block. -/
theorem cover0_B_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) (y : S1x1024x1.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1024x1.size (by sl_kernel_rfl) y

/-- What a last key block leaves in the output window's buffer. -/
def out0_B_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) : Vec F S1x1024x1 .f32 :=
  VO0_3.read (Elt F) (VO0_3.writes (Elt F) VO0_3.junk (kernelRun0_B c i arg3 harg3 arg4 harg4 arg5 harg5 arg6 harg6 arg7 harg7 hc0 hc1 x0 x1 x2 xs0).1)

theorem scover0_B_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) (y : S1024x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1.size (by sl_kernel_rfl) y

/-- What a last key block leaves in the accumulator. -/
def sout0_B_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) : Vec F S1024x1 .f32 :=
  VS0_0.read (Elt F) (VS0_0.writes (Elt F) VS0_0.junk (kernelRun0_B c i arg3 harg3 arg4 harg4 arg5 harg5 arg6 harg6 arg7 harg7 hc0 hc1 x0 x1 x2 xs0).2.1)

/-! ## What the output window's buffer and the accumulator hold after each point -/

/-- After point `n`: (the output window's buffer, the accumulator). An even point is a first key block; an odd point
    a last key block, run over what the point before left in the accumulator. -/
def outsAt0 (c : Dev nD) : (n : ℕ) → n < cfg0.N → Vec F S1x1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

/-- Before point `n`: before the first point, anything; afterwards the accumulator at what point `n - 1` left in it,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The call's proof data -/

/-- The arrays as the call finds them; after the body at point `t` each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's parity says which case it is in; the
    invariant hands the body the accumulator at what the point before left (at anything at the first point) and takes
    it back at this point's contents; the other scoped buffers, the generator register and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold out0_B_3 sout0_B_0; (try dsimp only)
    have hz : t.val ≠ 0 := by omega
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back the accumulator at some contents. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 192 := N_0; omega)

end

end Cert.Kernel.Fr

end
-- ==== Proof.K.R1Defs.lean ====
/-
  The attention kernel (the second of the two calls), seen from one grid point: the blocks of its five inputs
  (queries, keys, values, mask, row sums), the two conditions its body branches on (first key block of a query row: clear
  the context accumulator; last key block: emit the context rows), where its context window is idle, and the scratch
  accumulator it carries from one key block to the next.
-/
import proofs.«146835_j764504179346_1_alg».proof.Proof.Gen.Kernel.Launch
import proofs.«146835_j764504179346_1_alg».proof.Proof.Gen.Kernel.Skeleton
import proofs.«146835_j764504179346_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, over the grid (48 rows of heads × 2 query blocks × 2 key blocks, key block fastest) -/

/-- "This is the first key block": the context accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last key block": the context rows are emitted. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At a first key block nothing is stored into the context window, and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At a last key block the context window is stored into. -/
theorem liveAt1_6_B : ∀ t : Fin cfg1.N, ¬cond1_0 (grid1.coords t) → cond1_1 (grid1.coords t) → cfg1.idle 6 (grid1.coords t) = false := by decide +kernel

/-! ## The memrefs the body is called with -/

abbrev VO1_5 : View sig .tc .vmem S1x1024x1024 .f32 := (Memref.whole cc1_stg5_0 : Memref sig .tc .vmem S1x1024x1024 .f32).view
abbrev VO1_6 : View sig .tc .vmem S1x1024x64 .f32 := (Memref.whole cc1_stg6_0 : Memref sig .tc .vmem S1x1024x64 .f32).view
abbrev ms1_0 (t : Fin cfg1.N) : Memref sig .tc .vmem S1x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x64 .f32 := win1_6.stage (cfg1.slots t 6)
abbrev hs1_6 (t : Fin cfg1.N) : (ms1_6 t).IsWhole := hstage1_6 ((cfg1.slots t 6).cast nbuf1_6)
/-- The context accumulator: a whole scoped buffer of the kernel's own. -/
abbrev scM1_0 : Memref sig .tc .vmem S1024x64 .f32 := Memref.whole cc1_scratch0
abbrev VS1_0 : View sig .tc .vmem S1024x64 .f32 := scM1_0.view

/-- The core's other scoped buffers (the first call's staging buffers and accumulator), each at some contents: the
    attention kernel never touches them. -/
abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Fr

end
-- ==== Proof.K.R1RunA.lean ====
/-
  The attention kernel's body at a FIRST key block: the normalised weights of this block are stored into their
  window; the context accumulator, whatever it held, is cleared and then holds this block's contribution; nothing is
  stored into the context window.
-/
import proofs.«146835_j764504179346_1_alg».proof.Proof.K.R1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) :
    Σ' (L5 : List (View.Piece (Elt F) S1x1024x1024 .f32)) (L6 : List (View.Piece (Elt F) S1x1024x64 .f32)), { LS0 : List (View.Piece (Elt F) S1024x64 .f32) //
      ∀ (xi6 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.Kernel.Fr

end
-- ==== Proof.K.R1RunB.lean ====
/-
  The attention kernel's body at a LAST key block: the normalised weights of this block are stored into their
  window; this block's contribution is added to what the context accumulator held, and the total is stored into the
  context window.
-/
import proofs.«146835_j764504179346_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) :
    Σ' (L5 : List (View.Piece (Elt F) S1x1024x1024 .f32)) (L6 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Fr

end
-- ==== Proof.K.R1Frame.lean ====
/-
  The attention call, point by point. At every point the normalised weights of the point's (query block, key block)
  tile are stored and written back. After an even point (first key block) the context accumulator holds that block's
  contribution; after the odd point that follows (last key block) it holds the sum of both, and so does the context
  window's buffer, which is then written back. Between the two points nothing else touches the accumulator, so the
  call's invariant carries it at exactly these contents.
-/
import proofs.«146835_j764504179346_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

theorem cover1_A_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) (y : S1x1024x1024.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x1024x1024.size (by sl_kernel_rfl) y
/-- The weights tile a first key block leaves in its window's buffer. -/
def out1_A_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1x1024x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)
/-- At a first key block nothing is stored into the context window: a placeholder nothing consults. -/
def out1_A_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1x1024x64 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)
theorem scover1_A_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) (y : S1024x64.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S1024x64.size (by sl_kernel_rfl) y
/-- What a first key block leaves in the context accumulator. -/
def sout1_A_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1024x64 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

theorem cover1_B_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1x1024x1024.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x1024x1024.size (by sl_kernel_rfl) y
/-- The weights tile a last key block leaves in its window's buffer. -/
def out1_B_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1x1024x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)
theorem cover1_B_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1x1024x64.Idx) :
    ∃ pc ∈ (kernelRun1_B c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.1 S1x1024x64.size (by sl_kernel_rfl) y
/-- The context rows a last key block leaves in the context window's buffer. -/
def out1_B_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1x1024x64 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)
theorem scover1_B_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1024x64.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S1024x64.size (by sl_kernel_rfl) y
/-- What a last key block leaves in the context accumulator. -/
def sout1_B_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1024x64 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-! ## What the two output buffers and the accumulator hold after each point -/

/-- After point `n`: (the weights window's buffer, the context window's buffer, the accumulator). An even point is a
    first key block; an odd point a last key block, run over what the point before left in the accumulator. -/
def outsAt1 (c : Dev nD) : (n : ℕ) → n < cfg1.N → Vec F S1x1024x1024 .f32 × Vec F S1x1024x64 .f32 × Vec F S1024x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 2 = 0 then
      if h1 : (n + 1) % 2 = 1 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 2 = 1 then
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        False.elim (by omega)

theorem outsAt1_A (c : Dev nD) (t : Fin cfg1.N) (h0 : t.val % 2 = 0) (h1 : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 192 := lt_of_lt_of_eq t.isLt (show cfg1.N = 192 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 2 = 0
  · have h1 : ¬t.val % 2 = 1 := by omega
    rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
    rw [outsAt1_A V c t h0 h1]
    unfold out1_A_5 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
  · have h1 : t.val % 2 = 1 := by omega
    rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1)], after1_6]
    rw [outsAt1_B V c t h0 h1]
    unfold out1_B_5 out1_B_6 sout1_B_0; (try dsimp only)
    have hz : t.val ≠ 0 := by omega
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, ⟨%e5, H5⟩, ⟨%e6, H6⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 192 := N_1; omega)

end

end Cert.Kernel.Fr

end
-- ==== Proof.K.Run.lean ====
/-
  The whole program: reshape the four arguments, run the row-sum call, run the attention call, reshape the two
  results. The buffer contents at each boundary are a fold from the launch memory: a stretch of host operations
  applies them; a call leaves its arrays at what its write-backs leave and every other buffer as entered. Every
  weakly fair execution terminates with every unscoped buffer at the last boundary's contents; no item writes an
  argument, so the arguments end as launched.
-/
import proofs.«146835_j764504179346_1_alg».proof.Proof.K.R0Frame
import proofs.«146835_j764504179346_1_alg».proof.Proof.K.R1Frame
import proofs.«146835_j764504179346_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the four reshapes (the row-sum call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the row-sum call's exit (the attention call's entry): its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two closing reshapes. -/
abbrev W4 : Dev nD → Valuation τ sig (Elt F) := fun c => StableHlo.after hostOps2 (W3 m ρ c)

/-! ### No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as items -/

set_option backward.isDefEq.respectTransparency.types false in
/-- Call 0 over the thread state: entered with every unscoped buffer at `W1`, left with them at `W2`. Its
    arrays are split out of the unscoped buffers and put back at their final contents; the generator register and the
    scoped buffers go into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W2`, left with them at `W3`. Its
    arrays are split out of the unscoped buffers and put back at their final contents; the generator register and the
    scoped buffers go into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ (∃ r, prngReg c r) ∗ ∃ W, owes (c : Thread nD τ) (0 : CellTallies nD τ sig Unit) W) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Fr

end
-- ==== Proof.KI.R0Defs.lean ====
/-
  The row-sum kernel (the first of the two calls), seen from one grid point: the blocks of its three inputs, the two
  conditions its body branches on (first key block of a query row: clear the accumulator; last key block: emit the row
  sums), where its output window is idle, and the scratch accumulator it carries from one key block to the next.
-/
import proofs.«146835_j764504179346_1_alg».proof.Proof.Gen.KernelIdeal.Launch
import proofs.«146835_j764504179346_1_alg».proof.Proof.Gen.KernelIdeal.Skeleton
import proofs.«146835_j764504179346_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two conditions, over the grid (48 rows of heads × 2 query blocks × 2 key blocks, key block fastest) -/

/-- "This is the first key block": the accumulator is cleared. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last key block": the row sums are emitted. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first key block nothing is stored into the output window, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a last key block the output window is stored into. -/
theorem liveAt0_3_B : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1x1024x1 .f32 := (Memref.whole cc0_stg3_0 : Memref sig .tc .vmem S1x1024x1 .f32).view
abbrev ms0_0 (t : Fin cfg0.N) : Memref sig .tc .vmem S1x1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0
abbrev VS0_0 : View sig .tc .vmem S1024x1 .f32 := scM0_0.view

/-- The core's other scoped buffers (the second call's staging buffers and accumulator), each at some contents:
    the row-sum kernel never touches them. -/
abbrev others0 (c : Dev nD) : sProp 𝕄 :=
  Pipeline.scopedRestBut (Ix := Unit) (Name := ℕ) (U := UR sig nD τ) (Lvl := ℕ) (Val := Elt F) spec0 c [cc0_scratch0]

/-- What the call's invariant holds when nothing is said of the accumulator: the accumulator at some contents, the
    other scoped buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Fr

end
-- ==== Proof.KI.R0RunA.lean ====
/-
  The row-sum kernel's body at a FIRST key block: the accumulator, whatever it held, is cleared and then holds this
  block's row sums; nothing is stored into the output window.
-/
import proofs.«146835_j764504179346_1_alg».proof.Proof.KI.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the output window's buffer at contents handed back untouched,
    the accumulator at anything — the body runs to the continuation holding the inputs as they were and the accumulator
    with its stores written; the stores are found by running the body. -/
noncomputable def kernelRun0_A (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) :
    Σ' (L3 : List (View.Piece (Elt F) S1x1024x1 .f32)), { LS0 : List (View.Piece (Elt F) S1024x1 .f32) //
      ∀ (xi3 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R0RunB.lean ====
/-
  The row-sum kernel's body at a LAST key block: this block's row sums are added to what the accumulator held, and
  the total is stored into the output window.
-/
import proofs.«146835_j764504179346_1_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the output window's buffer at anything, the accumulator at
    what the point before left — the body runs to the continuation holding the inputs as they were and the output's
    buffer and the accumulator with their stores written; the stores are found by running the body. -/
noncomputable def kernelRun0_B (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) :
    Σ' (L3 : List (View.Piece (Elt F) S1x1024x1 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨?_, ?_, fun E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R0Frame.lean ====
/-
  The row-sum call, point by point. After an even point (first key block) the accumulator holds that block's row
  sums; after the odd point that follows (last key block) it holds the sum of both blocks, and so does the output
  window's buffer, which is then written back. Between the two points nothing else touches the accumulator, so the
  call's invariant carries it at exactly these contents.
-/
import proofs.«146835_j764504179346_1_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first key block nothing is stored into the output window: a placeholder nothing consults. -/
def out0_A_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) : Vec F S1x1024x1 .f32 :=
  VO0_3.read (Elt F) (VO0_3.writes (Elt F) VO0_3.junk (kernelRun0_A c i arg3 harg3 arg4 harg4 arg5 harg5 arg6 harg6 arg7 harg7 hc0 hc1 x0 x1 x2).1)

/-- The stores into the accumulator at a first key block cover it. -/
theorem scover0_A_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) (y : S1024x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1.size (by sl_kernel_rfl) y

/-- What a first key block leaves in the accumulator. -/
def sout0_A_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) : Vec F S1024x1 .f32 :=
  VS0_0.read (Elt F) (VS0_0.writes (Elt F) VS0_0.junk (kernelRun0_A c i arg3 harg3 arg4 harg4 arg5 harg5 arg6 harg6 arg7 harg7 hc0 hc1 x0 x1 x2).2.1)

/-- The store into the output window at a last key block covers its block. -/
theorem cover0_B_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) (y : S1x1024x1.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1024x1.size (by sl_kernel_rfl) y

/-- What a last key block leaves in the output window's buffer. -/
def out0_B_3 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) : Vec F S1x1024x1 .f32 :=
  VO0_3.read (Elt F) (VO0_3.writes (Elt F) VO0_3.junk (kernelRun0_B c i arg3 harg3 arg4 harg4 arg5 harg5 arg6 harg6 arg7 harg7 hc0 hc1 x0 x1 x2 xs0).1)

theorem scover0_B_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) (y : S1024x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1.size (by sl_kernel_rfl) y

/-- What a last key block leaves in the accumulator. -/
def sout0_B_0 (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) : Vec F S1024x1 .f32 :=
  VS0_0.read (Elt F) (VS0_0.writes (Elt F) VS0_0.junk (kernelRun0_B c i arg3 harg3 arg4 harg4 arg5 harg5 arg6 harg6 arg7 harg7 hc0 hc1 x0 x1 x2 xs0).2.1)

/-! ## What the output window's buffer and the accumulator hold after each point -/

/-- After point `n`: (the output window's buffer, the accumulator). An even point is a first key block; an odd point
    a last key block, run over what the point before left in the accumulator. -/
def outsAt0 (c : Dev nD) : (n : ℕ) → n < cfg0.N → Vec F S1x1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

/-- Before point `n`: before the first point, anything; afterwards the accumulator at what point `n - 1` left in it,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The call's proof data -/

/-- The arrays as the call finds them; after the body at point `t` each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's parity says which case it is in; the
    invariant hands the body the accumulator at what the point before left (at anything at the first point) and takes
    it back at this point's contents; the other scoped buffers, the generator register and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold out0_B_3 sout0_B_0; (try dsimp only)
    have hz : t.val ≠ 0 := by omega
    rw [PhiS0_castSucc V c t, PhiS0_pos V c _ _ hz]
    iintro ⟨⟨⟨HS0, HR⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back the accumulator at some contents. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 192 := N_0; omega)

end

end Cert.KernelIdeal.Fr

end
-- ==== Proof.KI.R1Defs.lean ====
/-
  The attention kernel (the second of the two calls), seen from one grid point: the blocks of its five inputs
  (queries, keys, values, mask, row sums), the two conditions its body branches on (first key block of a query row: clear
  the context accumulator; last key block: emit the context rows), where its context window is idle, and the scratch
  accumulator it carries from one key block to the next.
-/
import proofs.«146835_j764504179346_1_alg».proof.Proof.Gen.KernelIdeal.Launch
import proofs.«146835_j764504179346_1_alg».proof.Proof.Gen.KernelIdeal.Skeleton
import proofs.«146835_j764504179346_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, over the grid (48 rows of heads × 2 query blocks × 2 key blocks, key block fastest) -/

/-- "This is the first key block": the context accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last key block": the context rows are emitted. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At a first key block nothing is stored into the context window, and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At a last key block the context window is stored into. -/
theorem liveAt1_6_B : ∀ t : Fin cfg1.N, ¬cond1_0 (grid1.coords t) → cond1_1 (grid1.coords t) → cfg1.idle 6 (grid1.coords t) = false := by decide +kernel

/-! ## The memrefs the body is called with -/

abbrev VO1_5 : View sig .tc .vmem S1x1024x1024 .f32 := (Memref.whole cc1_stg5_0 : Memref sig .tc .vmem S1x1024x1024 .f32).view
abbrev VO1_6 : View sig .tc .vmem S1x1024x64 .f32 := (Memref.whole cc1_stg6_0 : Memref sig .tc .vmem S1x1024x64 .f32).view
abbrev ms1_0 (t : Fin cfg1.N) : Memref sig .tc .vmem S1x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x64 .f32 := win1_6.stage (cfg1.slots t 6)
abbrev hs1_6 (t : Fin cfg1.N) : (ms1_6 t).IsWhole := hstage1_6 ((cfg1.slots t 6).cast nbuf1_6)
/-- The context accumulator: a whole scoped buffer of the kernel's own. -/
abbrev scM1_0 : Memref sig .tc .vmem S1024x64 .f32 := Memref.whole cc1_scratch0
abbrev VS1_0 : View sig .tc .vmem S1024x64 .f32 := scM1_0.view

/-- The core's other scoped buffers (the first call's staging buffers and accumulator), each at some contents: the
    attention kernel never touches them. -/
abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Fr

end
-- ==== Proof.KI.R1RunA.lean ====
/-
  The attention kernel's body at a FIRST key block: the normalised weights of this block are stored into their
  window; the context accumulator, whatever it held, is cleared and then holds this block's contribution; nothing is
  stored into the context window.
-/
import proofs.«146835_j764504179346_1_alg».proof.Proof.KI.R1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) :
    Σ' (L5 : List (View.Piece (Elt F) S1x1024x1024 .f32)) (L6 : List (View.Piece (Elt F) S1x1024x64 .f32)), { LS0 : List (View.Piece (Elt F) S1024x64 .f32) //
      ∀ (xi6 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, [], ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.KernelIdeal.Fr

end
-- ==== Proof.KI.R1RunB.lean ====
/-
  The attention kernel's body at a LAST key block: the normalised weights of this block are stored into their
  window; this block's contribution is added to what the context accumulator held, and the total is stored into the
  context window.
-/
import proofs.«146835_j764504179346_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) :
    Σ' (L5 : List (View.Piece (Elt F) S1x1024x1024 .f32)) (L6 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Fr

end
-- ==== Proof.KI.R1Frame.lean ====
/-
  The attention call, point by point. At every point the normalised weights of the point's (query block, key block)
  tile are stored and written back. After an even point (first key block) the context accumulator holds that block's
  contribution; after the odd point that follows (last key block) it holds the sum of both, and so does the context
  window's buffer, which is then written back. Between the two points nothing else touches the accumulator, so the
  call's invariant carries it at exactly these contents.
-/
import proofs.«146835_j764504179346_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

theorem cover1_A_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) (y : S1x1024x1024.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x1024x1024.size (by sl_kernel_rfl) y
/-- The weights tile a first key block leaves in its window's buffer. -/
def out1_A_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1x1024x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)
/-- At a first key block nothing is stored into the context window: a placeholder nothing consults. -/
def out1_A_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1x1024x64 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)
theorem scover1_A_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) (y : S1024x64.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S1024x64.size (by sl_kernel_rfl) y
/-- What a first key block leaves in the context accumulator. -/
def sout1_A_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) : Vec F S1024x64 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

theorem cover1_B_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1x1024x1024.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x1024x1024.size (by sl_kernel_rfl) y
/-- The weights tile a last key block leaves in its window's buffer. -/
def out1_B_5 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1x1024x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)
theorem cover1_B_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1x1024x64.Idx) :
    ∃ pc ∈ (kernelRun1_B c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.1 S1x1024x64.size (by sl_kernel_rfl) y
/-- The context rows a last key block leaves in the context window's buffer. -/
def out1_B_6 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1x1024x64 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)
theorem scover1_B_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) (y : S1024x64.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S1024x64.size (by sl_kernel_rfl) y
/-- What a last key block leaves in the context accumulator. -/
def sout1_B_0 (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) : Vec F S1024x64 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-! ## What the two output buffers and the accumulator hold after each point -/

/-- After point `n`: (the weights window's buffer, the context window's buffer, the accumulator). An even point is a
    first key block; an odd point a last key block, run over what the point before left in the accumulator. -/
def outsAt1 (c : Dev nD) : (n : ℕ) → n < cfg1.N → Vec F S1x1024x1024 .f32 × Vec F S1x1024x64 .f32 × Vec F S1024x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 2 = 0 then
      if h1 : (n + 1) % 2 = 1 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 2 = 1 then
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        False.elim (by omega)

theorem outsAt1_A (c : Dev nD) (t : Fin cfg1.N) (h0 : t.val % 2 = 0) (h1 : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator at what the point before left -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ others1 c) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 192 := lt_of_lt_of_eq t.isLt (show cfg1.N = 192 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 2 = 0
  · have h1 : ¬t.val % 2 = 1 := by omega
    rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
    rw [outsAt1_A V c t h0 h1]
    unfold out1_A_5 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
  · have h1 : t.val % 2 = 1 := by omega
    rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1)], after1_6]
    rw [outsAt1_B V c t h0 h1]
    unfold out1_B_5 out1_B_6 sout1_B_0; (try dsimp only)
    have hz : t.val ≠ 0 := by omega
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, ⟨%e5, H5⟩, ⟨%e6, H6⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 192 := N_1; omega)

end

end Cert.KernelIdeal.Fr

end
-- ==== Proof.KI.Run.lean ====
/-
  The whole program: reshape the four arguments, run the row-sum call, run the attention call, reshape the two
  results. The buffer contents at each boundary are a fold from the launch memory: a stretch of host operations
  applies them; a call leaves its arrays at what its write-backs leave and every other buffer as entered. Every
  weakly fair execution terminates with every unscoped buffer at the last boundary's contents; no item writes an
  argument, so the arguments end as launched.
-/
import proofs.«146835_j764504179346_1_alg».proof.Proof.KI.R0Frame
import proofs.«146835_j764504179346_1_alg».proof.Proof.KI.R1Frame
import proofs.«146835_j764504179346_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the four reshapes (the row-sum call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the row-sum call's exit (the attention call's entry): its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two closing reshapes. -/
abbrev W4 : Dev nD → Valuation τ sig (Elt F) := fun c => StableHlo.after hostOps2 (W3 m ρ c)

/-! ### No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as items -/

set_option backward.isDefEq.respectTransparency.types false in
/-- Call 0 over the thread state: entered with every unscoped buffer at `W1`, left with them at `W2`. Its
    arrays are split out of the unscoped buffers and put back at their final contents; the generator register and the
    scoped buffers go into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W2`, left with them at `W3`. Its
    arrays are split out of the unscoped buffers and put back at their final contents; the generator register and the
    scoped buffers go into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ (∃ r, prngReg c r) ∗ ∃ W, owes (c : Thread nD τ) (0 : CellTallies nD τ sig Unit) W) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Fr

end
-- ==== Proof.Spec.lean ====
/-
  The function both programs compute, on the extended reals.

  For queries Q, keys K, values V : [4, 12, 2048, 64] and a multiplicative mask M : [4, 1, 2048, 2048]
  (shared by the 12 heads of a batch entry):

    w(b,h,q,k)    = exp((Σ_d Q(b,h,q,d) · K(b,h,k,d)) · 1/8) · M(b,0,q,k)        the masked, unnormalised weight
    ℓ(b,h,q)      = Σ_k w(b,h,q,k)                                              the row sum over all 2048 keys
    attn(b,h,q,k) = w(b,h,q,k) / (ℓ(b,h,q) + ε)                                 ε the float nearest 1e-8
    ctx(b,h,q,d)  = Σ_k attn(b,h,q,k) · V(b,h,k,d)

  The scale 1/8 and ε are kept as the float words both programs print (0x3E000000, 0x322BCC77): the same word
  on both sides is never evaluated.
-/
import Idealize.ShloMosaic.PureOps.Ideal
import Idealize.ShloMosaic.Lib.ValueIdx

noncomputable section

namespace Cert.Attn

open Idealize.ShloMosaic Idealize.ShloMosaic.ValueIdx

/-- Queries, keys, values, context: [batch, head, position, feature]. -/
abbrev Sx : Shape := ⟨4, ![4, 12, 2048, 64]⟩
/-- The mask: [batch, 1, query, key]. -/
abbrev Sm : Shape := ⟨4, ![4, 1, 2048, 2048]⟩
/-- The attention weights: [batch, head, query, key]. -/
abbrev Sa : Shape := ⟨4, ![4, 12, 2048, 2048]⟩

/-- The score scale, the float 0.125. -/
def scale : EReal := Ideal.ofBits .f32 0x3E000000#32
/-- The denominator's offset, the float nearest 1e-8. -/
def eps : EReal := Ideal.ofBits .f32 0x322BCC77#32

/-- The masked, unnormalised weight of key `k` for query `q`. -/
def weight (Q K : Sx.Idx → EReal) (M : Sm.Idx → EReal) (b : Fin 4) (h : Fin 12) (q k : Fin 2048) : EReal :=
  Ideal.exp ((∑ d : Fin 64, Q (ix4 b h q d) * K (ix4 b h k d)) * scale) * M (ix4 b (0 : Fin 1) q k)

/-- The sum of a query's weights over all keys. -/
def rowSum (Q K : Sx.Idx → EReal) (M : Sm.Idx → EReal) (b : Fin 4) (h : Fin 12) (q : Fin 2048) : EReal :=
  ∑ k : Fin 2048, weight Q K M b h q k

/-- The normalised weight, in coordinates. -/
def attnAt (Q K : Sx.Idx → EReal) (M : Sm.Idx → EReal) (b : Fin 4) (h : Fin 12) (q k : Fin 2048) : EReal :=
  Ideal.div (weight Q K M b h q k) (rowSum Q K M b h q + eps)

/-- The context vector's entry, in coordinates. -/
def ctxAt (Q K V : Sx.Idx → EReal) (M : Sm.Idx → EReal) (b : Fin 4) (h : Fin 12) (q : Fin 2048) (d : Fin 64) : EReal :=
  ∑ k : Fin 2048, attnAt Q K M b h q k * V (ix4 b h k d)

/-- The attention weights as one array. -/
def attn (Q K : Sx.Idx → EReal) (M : Sm.Idx → EReal) : Sa.Idx → EReal :=
  fun i => attnAt Q K M (i 0) (i 1) (i 2) (i 3)

/-- The context as one array. -/
def ctx (Q K V : Sx.Idx → EReal) (M : Sm.Idx → EReal) : Sx.Idx → EReal :=
  fun i => ctxAt Q K V M (i 0) (i 1) (i 2) (i 3)

end Cert.Attn

end
-- ==== Proof.KI.ValDefs.lean ====
/-
  The two calls' results as functions of the arrays the calls are entered with, in the calls' own layout: batch and
  head merged into one axis of 48 head rows (head row bh belongs to batch entry bh / 12, whose mask it shares).

    w(bh,q,k)    = exp((Σ_d Q(bh,q,d) · K(bh,k,d)) · 1/8) · M(bh / 12, q, k)
    rows(bh,q)   = Σ_k w(bh,q,k)                                    what the row-sum call leaves
    attn(bh,q,k) = w(bh,q,k) / (L(bh,q) + ε)                        what the attention call leaves, given row sums L
    ctx(bh,q,d)  = Σ_k attn(bh,q,k) · V(bh,k,d)
-/
import proofs.«146835_j764504179346_1_alg».proof.Proof.Gen.KernelIdeal
import proofs.«146835_j764504179346_1_alg».proof.Proof.Spec

noncomputable section

namespace Cert.KernelIdeal.Fr

open Cert.KernelIdeal Idealize.ShloMosaic Idealize.ShloMosaic.ValueIdx

/-- The batch entry of a head row. -/
abbrev batchOf (bh : Fin 48) : Fin 4 := ⟨bh.val / 12, by omega⟩

/-- The masked, unnormalised weight. -/
def w3 (Q K : S48x2048x64.Idx → EReal) (M : S4x2048x2048.Idx → EReal) (bh : Fin 48) (q k : Fin 2048) : EReal :=
  Ideal.exp ((∑ d : Fin 64, Q (ix3 bh q d) * K (ix3 bh k d)) * Cert.Attn.scale) * M (ix3 (batchOf bh) q k)

/-- The row sums, as the [48, 2048, 1] array the row-sum call writes. -/
def rows3 (Q K : S48x2048x64.Idx → EReal) (M : S4x2048x2048.Idx → EReal) : S48x2048x1.Idx → EReal :=
  fun i => ∑ k : Fin 2048, w3 Q K M (i 0) (i 1) k

/-- The normalised weights over given row sums `Lr`, as the [48, 2048, 2048] array the attention call writes. -/
def attn3 (Q K : S48x2048x64.Idx → EReal) (M : S4x2048x2048.Idx → EReal) (Lr : S48x2048x1.Idx → EReal) :
    S48x2048x2048.Idx → EReal :=
  fun i => Ideal.div (w3 Q K M (i 0) (i 1) (i 2)) (Lr (ix3 (i 0) (i 1) (0 : Fin 1)) + Cert.Attn.eps)

/-- The context rows, as the [48, 2048, 64] array the attention call writes. -/
def ctx3 (Q K Vv : S48x2048x64.Idx → EReal) (M : S4x2048x2048.Idx → EReal) (Lr : S48x2048x1.Idx → EReal) :
    S48x2048x64.Idx → EReal :=
  fun i => ∑ k : Fin 2048, attn3 Q K M Lr (ix3 (i 0) (i 1) k) * Vv (ix3 (i 0) k (i 2))

end Cert.KernelIdeal.Fr

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.KI.Host.lean ====
/-
  The host side of the program at the extended reals. Before the calls, queries, keys and values [4,12,2048,64] are
  reshaped to [48,2048,64] (head row bh = b·12 + h) and the mask [4,1,2048,2048] to [4,2048,2048]; after them the
  context [48,2048,64] and the weights [48,2048,2048] are reshaped back. A reshape keeps row-major positions, so in
  coordinates it only merges or splits the leading axes. Between the two calls nothing runs: the second call finds the
  reshaped inputs as the first call found them, and the row sums where the first call wrote them.
-/
import proofs.«146835_j764504179346_1_alg».proof.Proof.KI.Run
import proofs.«146835_j764504179346_1_alg».proof.Proof.KI.ValDefs
import proofs.«146835_j764504179346_1_alg».proof.Proof.LibRowMajor

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Cert.Lib.RowMajor

/-! ## Reshapes in coordinates -/

/-- Merging batch and head: head row `bh` of the merged array is head `bh % 12` of batch entry `bh / 12`. -/
theorem cast_merge (A : S4x12x2048x64.Idx → EReal) (h : S4x12x2048x64.ShapeCasts S48x2048x64) (bh : Fin 48) (q : Fin 2048) (d : Fin 64) :
    shapeCast S48x2048x64 A h (ix3 bh q d) = A (ix4 (batchOf bh) (⟨bh.val % 12, by omega⟩ : Fin 12) q d) := by
  have hA := rep_flatOf A
  have hB := rep_shapeCast hA h
  rw [(rep3_iff.mp hB) bh q d, (rep4_iff.mp hA) (batchOf bh) ⟨bh.val % 12, by omega⟩ q d]
  refine congrArg (flatOf A) ?_
  show (bh.val * 2048 + q.val) * 64 + d.val = (((bh.val / 12) * 12 + bh.val % 12) * 2048 + q.val) * 64 + d.val
  omega

/-- The same at a head row written as `b·12 + h`: no arithmetic is needed, the positions are the same sum. -/
theorem cast_merge_at (A : S4x12x2048x64.Idx → EReal) (h : S4x12x2048x64.ShapeCasts S48x2048x64) (b : Fin 4) (hh : Fin 12) (q : Fin 2048) (d : Fin 64) :
    shapeCast S48x2048x64 A h (ix3 (⟨b.val * 12 + hh.val, by omega⟩ : Fin 48) q d) = A (ix4 b hh q d) := by
  have hA := rep_flatOf A
  have hB := rep_shapeCast hA h
  rw [(rep3_iff.mp hB) ⟨b.val * 12 + hh.val, by omega⟩ q d, (rep4_iff.mp hA) b hh q d]

/-- The batch entry of head row `b·12 + h` is `b`. -/
theorem batchOf_mk (b : Fin 4) (hh : Fin 12) : batchOf (⟨b.val * 12 + hh.val, by omega⟩ : Fin 48) = b :=
  Fin.ext (by show (b.val * 12 + hh.val) / 12 = b.val; omega)

/-- Dropping the mask's unit axis. -/
theorem cast_mask (M : S4x1x2048x2048.Idx → EReal) (h : S4x1x2048x2048.ShapeCasts S4x2048x2048) (b : Fin 4) (q k : Fin 2048) :
    shapeCast S4x2048x2048 M h (ix3 b q k) = M (ix4 b (0 : Fin 1) q k) := by
  have hA := rep_flatOf M
  have hB := rep_shapeCast hA h
  rw [(rep3_iff.mp hB) b q k, (rep4_iff.mp hA) b (0 : Fin 1) q k]
  refine congrArg (flatOf M) ?_
  show (b.val * 2048 + q.val) * 2048 + k.val = ((b.val * 1 + 0) * 2048 + q.val) * 2048 + k.val
  omega

/-- Splitting the head rows back into batch and head (feature rows). -/
theorem cast_split (A : S48x2048x64.Idx → EReal) (h : S48x2048x64.ShapeCasts S4x12x2048x64) (b : Fin 4) (hh : Fin 12) (q : Fin 2048) (d : Fin 64) :
    shapeCast S4x12x2048x64 A h (ix4 b hh q d) = A (ix3 (⟨b.val * 12 + hh.val, by omega⟩ : Fin 48) q d) := by
  have hA := rep_flatOf A
  have hB := rep_shapeCast hA h
  rw [(rep4_iff.mp hB) b hh q d, (rep3_iff.mp hA) ⟨b.val * 12 + hh.val, by omega⟩ q d]

/-- Splitting the head rows back into batch and head (weight rows). -/
theorem cast_split_w (A : S48x2048x2048.Idx → EReal) (h : S48x2048x2048.ShapeCasts S4x12x2048x2048) (b : Fin 4) (hh : Fin 12) (q k : Fin 2048) :
    shapeCast S4x12x2048x2048 A h (ix4 b hh q k) = A (ix3 (⟨b.val * 12 + hh.val, by omega⟩ : Fin 48) q k) := by
  have hA := rep_flatOf A
  have hB := rep_shapeCast hA h
  rw [(rep4_iff.mp hB) b hh q k, (rep3_iff.mp hA) ⟨b.val * 12 + hh.val, by omega⟩ q k]

/-! ## What the host stretches write -/

variable (m : (ℓ : Loc nD τ sig) → Buf (Elt Ideal) ℓ) (ρ : Dev nD → PrngReg)

theorem V1_main_v0 (c : Dev nD) : (V1 m ρ c main_v0 : S48x2048x64.Idx → EReal)
    = shapeCast S48x2048x64 (m ((c : Thread nD τ).loc main_arg0)) shapeCasts_S4x12x2048x64_S48x2048x64 := by
  show StableHlo.after hostOps0 (W0 m ρ c) (Proc.devRef .tc main_v0) = _
  after_results; rfl
theorem V1_main_v1 (c : Dev nD) : (V1 m ρ c main_v1 : S48x2048x64.Idx → EReal)
    = shapeCast S48x2048x64 (m ((c : Thread nD τ).loc main_arg1)) shapeCasts_S4x12x2048x64_S48x2048x64 := by
  show StableHlo.after hostOps0 (W0 m ρ c) (Proc.devRef .tc main_v1) = _
  after_results; rfl
theorem V1_main_v2 (c : Dev nD) : (V1 m ρ c main_v2 : S48x2048x64.Idx → EReal)
    = shapeCast S48x2048x64 (m ((c : Thread nD τ).loc main_arg2)) shapeCasts_S4x12x2048x64_S48x2048x64 := by
  show StableHlo.after hostOps0 (W0 m ρ c) (Proc.devRef .tc main_v2) = _
  after_results; rfl
theorem V1_main_v3 (c : Dev nD) : (V1 m ρ c main_v3 : S4x2048x2048.Idx → EReal)
    = shapeCast S4x2048x2048 (m ((c : Thread nD τ).loc main_arg3)) shapeCasts_S4x1x2048x2048_S4x2048x2048 := by
  show StableHlo.after hostOps0 (W0 m ρ c) (Proc.devRef .tc main_v3) = _
  after_results; rfl

theorem W4_main_v6 (c : Dev nD) : (W4 m ρ c (Proc.devRef .tc main_v6) : S4x12x2048x64.Idx → EReal)
    = shapeCast S4x12x2048x64 (W3 m ρ c (Proc.devRef .tc main_v5_1)) shapeCasts_S48x2048x64_S4x12x2048x64 := by
  show StableHlo.after hostOps2 (W3 m ρ c) (Proc.devRef .tc main_v6) = _
  after_results; rfl
theorem W4_main_v7 (c : Dev nD) : (W4 m ρ c (Proc.devRef .tc main_v7) : S4x12x2048x2048.Idx → EReal)
    = shapeCast S4x12x2048x2048 (W3 m ρ c (Proc.devRef .tc main_v5_0)) shapeCasts_S48x2048x2048_S4x12x2048x2048 := by
  show StableHlo.after hostOps2 (W3 m ρ c) (Proc.devRef .tc main_v7) = _
  after_results; rfl

/-! ## Between the calls -/

theorem V2_main_v0 (c : Dev nD) : V2 m ρ c main_v0 = V1 m ρ c main_v0 :=
  (W2_arr m ρ c 0).trans (((dat0 (V1 m ρ) c).arrAt_in 0 rfl _).trans (A_eq0 (V1 m ρ) c 0))
theorem V2_main_v1 (c : Dev nD) : V2 m ρ c main_v1 = V1 m ρ c main_v1 :=
  (W2_arr m ρ c 1).trans (((dat0 (V1 m ρ) c).arrAt_in 1 rfl _).trans (A_eq0 (V1 m ρ) c 1))
theorem V2_main_v3 (c : Dev nD) : V2 m ρ c main_v3 = V1 m ρ c main_v3 :=
  (W2_arr m ρ c 2).trans (((dat0 (V1 m ρ) c).arrAt_in 2 rfl _).trans (A_eq0 (V1 m ρ) c 2))
theorem V2_main_v2 (c : Dev nD) : V2 m ρ c main_v2 = V1 m ρ c main_v2 :=
  W2_of_ne m ρ c main_v2 (by decide)
/-- The row sums are where the first call's write-backs left them. -/
theorem V2_main_v4 (c : Dev nD) : V2 m ρ c main_v4 = (dat0 (V1 m ρ) c).arrAt 3 cfg0.N :=
  W2_arr m ρ c 3
theorem W3_main_v5_0 (c : Dev nD) : W3 m ρ c (Proc.devRef .tc main_v5_0) = (dat1 (V2 m ρ) c).arrAt 5 cfg1.N :=
  W3_arr m ρ c 5
theorem W3_main_v5_1 (c : Dev nD) : W3 m ρ c (Proc.devRef .tc main_v5_1) = (dat1 (V2 m ρ) c).arrAt 6 cfg1.N :=
  W3_arr m ρ c 6

end Cert.KernelIdeal.Fr

end
-- ==== Proof.KI.Final.lean ====
/-
  The program's two results are the specification's arrays. The weights array [48,2048,2048] the attention call leaves
  is w / (ℓ + ε) over the reshaped inputs and the row sums ℓ the row-sum call left; split back to [4,12,2048,2048] it is
  the specification's attn. The context array is Σ_k attn · V over the reshaped values; split back it is the
  specification's ctx. Head row b·12 + h of a reshaped array is (b, h) of the original, and its mask is batch entry b's.
-/
import proofs.«146835_j764504179346_1_alg».proof.Proof.KI.Host

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The four arguments as launched. -/
abbrev Qa (c : Dev nD) : S4x12x2048x64.Idx → EReal := m ((c : Thread nD τ).loc main_arg0)
abbrev Ka (c : Dev nD) : S4x12x2048x64.Idx → EReal := m ((c : Thread nD τ).loc main_arg1)
abbrev Va (c : Dev nD) : S4x12x2048x64.Idx → EReal := m ((c : Thread nD τ).loc main_arg2)
abbrev Ma (c : Dev nD) : S4x1x2048x2048.Idx → EReal := m ((c : Thread nD τ).loc main_arg3)

/-- The three array functions read at an index built from coordinates. -/
theorem rows3_at (Q K : S48x2048x64.Idx → EReal) (M : S4x2048x2048.Idx → EReal) (bh : Fin 48) (q : Fin 2048) :
    rows3 Q K M (ix3 bh q (0 : Fin 1)) = ∑ k : Fin 2048, w3 Q K M bh q k := rfl
theorem attn3_at (Q K : S48x2048x64.Idx → EReal) (M : S4x2048x2048.Idx → EReal) (Lr : S48x2048x1.Idx → EReal) (bh : Fin 48) (q k : Fin 2048) :
    attn3 Q K M Lr (ix3 bh q k) = Ideal.div (w3 Q K M bh q k) (Lr (ix3 bh q (0 : Fin 1)) + Cert.Attn.eps) := rfl
theorem ctx3_at (Q K Vv : S48x2048x64.Idx → EReal) (M : S4x2048x2048.Idx → EReal) (Lr : S48x2048x1.Idx → EReal) (bh : Fin 48) (q : Fin 2048) (d : Fin 64) :
    ctx3 Q K Vv M Lr (ix3 bh q d) = ∑ k : Fin 2048, attn3 Q K M Lr (ix3 bh q k) * Vv (ix3 bh k d) := rfl

/-- The weight over the reshaped inputs, at head row b·12 + h, is the specification's weight at (b, h). -/
theorem w3_entry (c : Dev nD) (b : Fin 4) (h : Fin 12) (q k : Fin 2048) :
    w3 (V1 m ρ c main_v0) (V1 m ρ c main_v1) (V1 m ρ c main_v3) (⟨b.val * 12 + h.val, by omega⟩ : Fin 48) q k
      = Cert.Attn.weight (Qa m c) (Ka m c) (Ma m c) b h q k := by
  unfold w3 Cert.Attn.weight
  rw [V1_main_v0, V1_main_v1, V1_main_v3, batchOf_mk]
  have eQ : ∀ (x : Fin 2048) (d : Fin 64), shapeCast S48x2048x64 (m ((c : Thread nD τ).loc main_arg0)) shapeCasts_S4x12x2048x64_S48x2048x64
      (ix3 (⟨b.val * 12 + h.val, by omega⟩ : Fin 48) x d) = Qa m c (ix4 b h x d) := fun x d => cast_merge_at (Qa m c) _ b h x d
  have eK : ∀ (x : Fin 2048) (d : Fin 64), shapeCast S48x2048x64 (m ((c : Thread nD τ).loc main_arg1)) shapeCasts_S4x12x2048x64_S48x2048x64
      (ix3 (⟨b.val * 12 + h.val, by omega⟩ : Fin 48) x d) = Ka m c (ix4 b h x d) := fun x d => cast_merge_at (Ka m c) _ b h x d
  have eM : shapeCast S4x2048x2048 (m ((c : Thread nD τ).loc main_arg3)) shapeCasts_S4x1x2048x2048_S4x2048x2048 (ix3 b q k)
      = Ma m c (ix4 b (0 : Fin 1) q k) := cast_mask (Ma m c) _ b q k
  simp only [eQ, eK, eM]

/-- The row sums over the reshaped inputs are the specification's. -/
theorem rows_entry (c : Dev nD) (b : Fin 4) (h : Fin 12) (q : Fin 2048) :
    rows3 (V1 m ρ c main_v0) (V1 m ρ c main_v1) (V1 m ρ c main_v3) (ix3 (⟨b.val * 12 + h.val, by omega⟩ : Fin 48) q (0 : Fin 1))
      = Cert.Attn.rowSum (Qa m c) (Ka m c) (Ma m c) b h q := by
  rw [rows3_at]
  unfold Cert.Attn.rowSum
  exact Finset.sum_congr rfl fun k _ => w3_entry m ρ c b h q k

section
variable
  (h03 : ∀ (V : (c : Dev nD) → (b : Ref sig .tc) → Buf (Elt Ideal) ((c : Thread nD τ).loc b)) (c : Dev nD),
    (dat0 (F := Ideal) V c).arrAt 3 cfg0.N = rows3 (V c main_v0) (V c main_v1) (V c main_v3))
  (h15 : ∀ (V : (c : Dev nD) → (b : Ref sig .tc) → Buf (Elt Ideal) ((c : Thread nD τ).loc b)) (c : Dev nD),
    (dat1 (F := Ideal) V c).arrAt 5 cfg1.N = attn3 (V c main_v0) (V c main_v1) (V c main_v3) (V c main_v4))
  (h16 : ∀ (V : (c : Dev nD) → (b : Ref sig .tc) → Buf (Elt Ideal) ((c : Thread nD τ).loc b)) (c : Dev nD),
    (dat1 (F := Ideal) V c).arrAt 6 cfg1.N = ctx3 (V c main_v0) (V c main_v1) (V c main_v2) (V c main_v3) (V c main_v4))

include h03 in
/-- The normalised weight the attention call computes at head row b·12 + h is the specification's at (b, h). -/
theorem attn_entry (c : Dev nD) (b : Fin 4) (h : Fin 12) (q k : Fin 2048) :
    attn3 (V2 m ρ c main_v0) (V2 m ρ c main_v1) (V2 m ρ c main_v3) (V2 m ρ c main_v4) (ix3 (⟨b.val * 12 + h.val, by omega⟩ : Fin 48) q k)
      = Cert.Attn.attnAt (Qa m c) (Ka m c) (Ma m c) b h q k := by
  rw [attn3_at, V2_main_v0, V2_main_v1, V2_main_v3, V2_main_v4, h03, w3_entry, rows_entry]
  rfl

include h03 h15 in
/-- The second result is the specification's attention weights. -/
theorem out_attn (c : Dev nD) :
    (W4 m ρ c (Proc.devRef .tc main_v7) : S4x12x2048x2048.Idx → EReal) = Cert.Attn.attn (Qa m c) (Ka m c) (Ma m c) := by
  funext i
  obtain ⟨b, h, q, k, rfl⟩ : ∃ (b : Fin 4) (h : Fin 12) (q k : Fin 2048), i = ix4 b h q k := ⟨i 0, i 1, i 2, i 3, eq_ix4 i⟩
  rw [W4_main_v7, cast_split_w, W3_main_v5_0, h15]
  exact attn_entry m ρ h03 c b h q k

include h03 h16 in
/-- The first result is the specification's context. -/
theorem out_ctx (c : Dev nD) :
    (W4 m ρ c (Proc.devRef .tc main_v6) : S4x12x2048x64.Idx → EReal) = Cert.Attn.ctx (Qa m c) (Ka m c) (Va m c) (Ma m c) := by
  funext i
  obtain ⟨b, h, q, d, rfl⟩ : ∃ (b : Fin 4) (h : Fin 12) (q : Fin 2048) (d : Fin 64), i = ix4 b h q d := ⟨i 0, i 1, i 2, i 3, eq_ix4 i⟩
  rw [W4_main_v6, cast_split, W3_main_v5_1, h16, ctx3_at]
  unfold Cert.Attn.ctx Cert.Attn.ctxAt
  show _ = ∑ k : Fin 2048, Cert.Attn.attnAt (Qa m c) (Ka m c) (Ma m c) b h q k * Va m c (ix4 b h k d)
  refine Finset.sum_congr rfl fun k _ => ?_
  rw [attn_entry m ρ h03 c b h q k, V2_main_v2, V1_main_v2]
  exact congrArg (_ * ·) (cast_merge_at (Va m c) _ b h k d)

end

end Cert.KernelIdeal.Fr

end
-- ==== Proof.KI.R0Pieces.lean ====
/-
  The row-sum kernel's found pieces, read back as values. Each case of the body leaves, in the accumulator and in the
  output window's buffer, the payload of a whole-buffer store; the loads that feed it read whole buffers, so each piece
  is the body's arithmetic applied to the inputs' blocks and to what the accumulator held.
-/
import proofs.«146835_j764504179346_1_alg».proof.Proof.KI.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A rank-2 rectangle's zero offsets, as the constant function. -/
theorem offs2_zero : (![0, 0] : Fin 2 → Nat) = fun _ => 0 := funext fun a => by fin_cases a <;> rfl
/-- A rank-3 rectangle's zero offsets, as the constant function. -/
theorem offs3_zero : (![0, 0, 0] : Fin 3 → Nat) = fun _ => 0 := funext fun a => by fin_cases a <;> rfl

/-- At a first key block the accumulator is cleared, read back, and left holding this block's row sums added to the
    zero block: the last of its two whole-buffer stores, whose loads read the whole input buffers. -/
theorem sout0_A_0_eq (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 x1 : Vec F S1x1024x64 .f32) (x2 : Vec F S1x1024x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1) offs2_zero, View.readCov_unit_zero (S := S1024x1) _ offs2_zero]
  simp only [View.readAt_eq_ld, harg3.read_unread, harg4.read_unread, harg5.read_unread,
    View.ld_unit_zero (S := S1x1024x64) offs3_zero, View.ld_unit_zero (S := S1x1024x1024) offs3_zero]

/-- At a last key block the accumulator is left holding this block's row sums added to what it held: its one
    whole-buffer store. -/
theorem sout0_B_0_eq (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1) offs2_zero]
  simp only [View.readAt_eq_ld, harg3.read_unread, harg4.read_unread, harg5.read_unread, harg7.read_unread,
    View.ld_unit_zero (S := S1x1024x64) offs3_zero, View.ld_unit_zero (S := S1x1024x1024) offs3_zero,
    View.ld_unit_zero (S := S1024x1) offs2_zero]

/-- At a last key block the output window's buffer is left holding the accumulator's new contents, reshaped: its one
    whole-buffer store, whose payload reads the accumulator back after the store above. -/
theorem out0_B_3_eq (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x1024 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 x1 : Vec F S1x1024x64 .f32) (x2 : Vec F S1x1024x1024 .f32) (xs0 : Vec F S1024x1 .f32) :
    out0_B_3 c i arg3 harg3 arg4 harg4 arg5 harg5 arg6 harg6 arg7 harg7 hc0 hc1 x0 x1 x2 xs0 = k0_pay3 (k0_pay2 x0 x1 x2 xs0) := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero (S := S1x1024x1) offs3_zero, View.readCov_unit_zero (S := S1024x1) _ offs2_zero]
  simp only [View.readAt_eq_ld, harg3.read_unread, harg4.read_unread, harg5.read_unread, harg7.read_unread,
    View.ld_unit_zero (S := S1x1024x64) offs3_zero, View.ld_unit_zero (S := S1x1024x1024) offs3_zero,
    View.ld_unit_zero (S := S1024x1) offs2_zero]

end Cert.KernelIdeal.Fr

end
-- ==== Proof.PayCommon.lean ====
/-
  Sub-terms the two kernel bodies share, read at an index on the extended reals.

  Both bodies form the score matrix S = Q · Kᵀ of a [1024, 64] query block and a [1024, 64] key block (a matrix
  product into a zero accumulator, contracting the 64 features), scale it, exponentiate it and multiply by the mask
  block: W(r, k) = exp((Σ_d Q(r, d) · K(k, d)) · scale) · M(r, k). One body sums W along the keys; the other divides it
  by a per-row denominator and multiplies the quotient into the value block. Here: the two matrix products, each at
  one index.
-/
import proofs.«146835_j764504179346_1_alg».proof.Proof.Gen.KernelIdeal.Skeleton
import proofs.«146835_j764504179346_1_alg».proof.Proof.Spec
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-! ## [1024, 64] · [64, 1024]: the operands' indices -/

/-- The left operand's row is the output's row. -/
theorem lhsQK_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
/-- The left operand's column is the contracted coordinate. -/
theorem lhsQK_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- The right operand's row is the contracted coordinate. -/
theorem rhsQK_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- The right operand's column is the output's column. -/
theorem rhsQK_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The product [1024, 64] · [64, 1024] into zero: entry (r, k) is the sum over the 64 contracted coordinates. -/
theorem dotQK_at (A : FVec Ideal S1024x64 .bf16) (B : FVec Ideal S64x1024 .bf16) (r k : Fin 1024) :
    (matmul dot_S1024x64_S64x1024_S1024x1024_1_0_0_1_n_n none A B (constant (F := Ideal) S1024x1024 .f32 0x00000000#32)) (ix2 r k)
      = ∑ d : Fin 64, A (ix2 r d) * B (ix2 d k) := by
  refine (Ideal.matmul_constant_zero_apply dot_S1024x64_S64x1024_S1024x1024_1_0_0_1_n_n none A B (ix2 r k)).trans ?_
  rw [← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  have el : dot_S1024x64_S64x1024_S1024x1024_1_0_0_1_n_n.lhsIdx (ix2 r k)
      ((contrEquiv1 dot_S1024x64_S64x1024_S1024x1024_1_0_0_1_n_n 64 rfl rfl).symm d) = ix2 r d :=
    funext fun a => Fin.ext (by
      match a with
      | ⟨0, _⟩ => exact lhsQK_0 _ _
      | ⟨1, _⟩ => exact (lhsQK_1 _ _).trans hd)
  have er : dot_S1024x64_S64x1024_S1024x1024_1_0_0_1_n_n.rhsIdx (ix2 r k)
      ((contrEquiv1 dot_S1024x64_S64x1024_S1024x1024_1_0_0_1_n_n 64 rfl rfl).symm d) = ix2 d k :=
    funext fun a => Fin.ext (by
      match a with
      | ⟨0, _⟩ => exact (rhsQK_0 _ _).trans hd
      | ⟨1, _⟩ => exact rhsQK_1 _ _)
  rw [el, er]

/-! ## [1024, 1024] · [1024, 64]: the operands' indices -/

/-- The left operand's row is the output's row. -/
theorem lhsAV_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- The left operand's column is the contracted coordinate. -/
theorem lhsAV_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's row is the contracted coordinate. -/
theorem rhsAV_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- The right operand's column is the output's column. -/
theorem rhsAV_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The product [1024, 1024] · [1024, 64] into zero: entry (r, d) is the sum over the 1024 contracted coordinates. -/
theorem dotAV_at (A : FVec Ideal S1024x1024 .bf16) (B : FVec Ideal S1024x64 .bf16) (r : Fin 1024) (d : Fin 64) :
    (matmul dot_S1024x1024_S1024x64_S1024x64_1_0_0_1_n_n none A B (constant (F := Ideal) S1024x64 .f32 0x00000000#32)) (ix2 r d)
      = ∑ k : Fin 1024, A (ix2 r k) * B (ix2 k d) := by
  refine (Ideal.matmul_constant_zero_apply dot_S1024x1024_S1024x64_S1024x64_1_0_0_1_n_n none A B (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d)
      ((contrEquiv1 dot_S1024x1024_S1024x64_S1024x64_1_0_0_1_n_n 1024 rfl rfl).symm k) = ix2 r k :=
    funext fun a => Fin.ext (by
      match a with
      | ⟨0, _⟩ => exact lhsAV_0 _ _
      | ⟨1, _⟩ => exact (lhsAV_1 _ _).trans hk)
  have er : dot_S1024x1024_S1024x64_S1024x64_1_0_0_1_n_n.rhsIdx (ix2 r d)
      ((contrEquiv1 dot_S1024x1024_S1024x64_S1024x64_1_0_0_1_n_n 1024 rfl rfl).symm k) = ix2 k d :=
    funext fun a => Fin.ext (by
      match a with
      | ⟨0, _⟩ => exact (rhsAV_0 _ _).trans hk
      | ⟨1, _⟩ => exact rhsAV_1 _ _)
  rw [el, er]

end Cert.KernelIdeal.PayIdx

end
-- ==== Proof.PayWeight.lean ====
/-
  The masked, unnormalised weights of one (query block, key block) pair, as both kernel bodies spell them, read at an
  index on the extended reals; and a sum along the key axis read at a row.

  For a [1, 1024, 64] query block Q, a [1, 1024, 64] key block K and a [1, 1024, 1024] mask block M,
    W(r, k) = exp((Σ_d Q(0, r, d) · K(0, k, d)) · scale) · M(0, r, k).
  The narrowing of the operands before the product is the identity on the extended reals; the transposition of the
  key block turns the contracted axis of the product into the keys' feature axis.
-/
import proofs.«146835_j764504179346_1_alg».proof.Proof.PayCommon

noncomputable section

namespace Cert.KernelIdeal.PayIdx

open Cert.KernelIdeal Cert.KernelIdeal.Gen Idealize.ShloMosaic Idealize.ShloMosaic.ValueIdx

/-- A [1, 1024, 64] block viewed [1024, 64] and narrowed: entry (r, d) is the block's entry (0, r, d). -/
theorem rows_at (x : Vec Ideal S1x1024x64 .f32) (r : Fin 1024) (d : Fin 64) :
    (truncf .bf16 (shapeCast S1024x64 x shapeCasts_S1x1024x64_S1024x64) bitsLt_bf16_f32 : FVec Ideal S1024x64 .bf16) (ix2 r d)
      = x (ix3 0 r d) :=
  shapeCast_1ab_ab_apply x shapeCasts_S1x1024x64_S1024x64 r d

/-- That view transposed: entry (d, k) is the block's entry (0, k, d). -/
theorem cols_at (x : Vec Ideal S1x1024x64 .f32) (d : Fin 64) (k : Fin 1024) :
    (transpose S64x1024 [1, 0]
        (truncf .bf16 (shapeCast S1024x64 x shapeCasts_S1x1024x64_S1024x64) bitsLt_bf16_f32 : FVec Ideal S1024x64 .bf16)
        transposes_S1024x64_p1_0_S64x1024) (ix2 d k)
      = x (ix3 0 k d) :=
  (transpose_ix2_apply _ transposes_S1024x64_p1_0_S64x1024 d k).trans (rows_at x k d)

/-- A [1, 1024, 1024] block viewed [1024, 1024]: entry (r, k) is the block's entry (0, r, k). -/
theorem mask_at (x : Vec Ideal S1x1024x1024 .f32) (r k : Fin 1024) :
    (shapeCast S1024x1024 x shapeCasts_S1x1024x1024_S1024x1024 : FVec Ideal S1024x1024 .f32) (ix2 r k) = x (ix3 0 r k) :=
  shapeCast_1ab_ab_apply x shapeCasts_S1x1024x1024_S1024x1024 r k

/-- The score matrix: entry (r, k) is the inner product of query row r and key row k. -/
theorem scores_at (x0 x1 : Vec Ideal S1x1024x64 .f32) (r k : Fin 1024) :
    (matmul dot_S1024x64_S64x1024_S1024x1024_1_0_0_1_n_n none
        (truncf .bf16 (shapeCast S1024x64 x0 shapeCasts_S1x1024x64_S1024x64) bitsLt_bf16_f32 : FVec Ideal S1024x64 .bf16)
        (transpose S64x1024 [1, 0]
          (truncf .bf16 (shapeCast S1024x64 x1 shapeCasts_S1x1024x64_S1024x64) bitsLt_bf16_f32 : FVec Ideal S1024x64 .bf16)
          transposes_S1024x64_p1_0_S64x1024)
        (constant (F := Ideal) S1024x1024 .f32 0x00000000#32)) (ix2 r k)
      = ∑ d : Fin 64, x0 (ix3 0 r d) * x1 (ix3 0 k d) :=
  (dotQK_at _ _ r k).trans (Finset.sum_congr rfl fun d _ => by rw [rows_at, cols_at])

/-- The masked, unnormalised weights of one block pair, in the bodies' own spelling. -/
def wmat (v3 v6 : Vec Ideal S1x1024x64 .f32) (v14 : Vec Ideal S1x1024x1024 .f32) : FVec Ideal S1024x1024 .f32 :=
  mulf
    (exp (mulf
      (matmul dot_S1024x64_S64x1024_S1024x1024_1_0_0_1_n_n none
        (truncf .bf16 (shapeCast S1024x64 v3 shapeCasts_S1x1024x64_S1024x64) bitsLt_bf16_f32 : FVec Ideal S1024x64 .bf16)
        (transpose S64x1024 [1, 0]
          (truncf .bf16 (shapeCast S1024x64 v6 shapeCasts_S1x1024x64_S1024x64) bitsLt_bf16_f32 : FVec Ideal S1024x64 .bf16)
          transposes_S1024x64_p1_0_S64x1024)
        (constant (F := Ideal) S1024x1024 .f32 0x00000000#32))
      (broadcast S1024x1024 (Scalar.ofBits (F := Ideal) .f32 0x3E000000#32))))
    (shapeCast S1024x1024 v14 shapeCasts_S1x1024x1024_S1024x1024)

/-- W(r, k) = exp((Σ_d Q(0, r, d) · K(0, k, d)) · scale) · M(0, r, k). -/
theorem wmat_at (x0 x1 : Vec Ideal S1x1024x64 .f32) (x2 : Vec Ideal S1x1024x1024 .f32) (r k : Fin 1024) :
    wmat x0 x1 x2 (ix2 r k)
      = Ideal.exp ((∑ d : Fin 64, x0 (ix3 0 r d) * x1 (ix3 0 k d)) * Cert.Attn.scale) * x2 (ix3 0 r k) := by
  have e : wmat x0 x1 x2 (ix2 r k)
      = Ideal.exp ((matmul dot_S1024x64_S64x1024_S1024x1024_1_0_0_1_n_n none
          (truncf .bf16 (shapeCast S1024x64 x0 shapeCasts_S1x1024x64_S1024x64) bitsLt_bf16_f32 : FVec Ideal S1024x64 .bf16)
          (transpose S64x1024 [1, 0]
            (truncf .bf16 (shapeCast S1024x64 x1 shapeCasts_S1x1024x64_S1024x64) bitsLt_bf16_f32 : FVec Ideal S1024x64 .bf16)
            transposes_S1024x64_p1_0_S64x1024)
          (constant (F := Ideal) S1024x1024 .f32 0x00000000#32)) (ix2 r k) * Cert.Attn.scale)
        * (shapeCast S1024x1024 x2 shapeCasts_S1x1024x1024_S1024x1024 : FVec Ideal S1024x1024 .f32) (ix2 r k) := rfl
  rw [e, scores_at, mask_at]

/-- The sum along the keys of a [1024, 1024] matrix, from the zero word: entry r is the sum of row r. -/
theorem laneSum_at (src : FVec Ideal S1024x1024 .f32) (r : Fin 1024) :
    multiReduction .add [1] S1024 src 0x00000000#32 reduces_S1024x1024_S1024 (.inl rfl) rfl (ix1 r)
      = ∑ k : Fin 1024, src (ix2 r k) := by
  refine (Ideal.multiReduction_add_single src 0x00000000#32 reduces_S1024x1024_S1024 (.inl rfl) rfl (ix1 r)).trans ?_
  refine Finset.sum_congr rfl fun k _ => congrArg src ?_
  funext a
  match a with
  | ⟨0, _⟩ => rfl
  | ⟨1, _⟩ => rfl

end Cert.KernelIdeal.PayIdx

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.PayIdx0.lean ====
/-
  The row-sum kernel's three payloads read at an index on the extended reals.

  The body keeps a [1024, 1] scratch column. On the first key block it writes zeros into it; on every key block it adds,
  to the scratch's row r, the sum over the block's 1024 keys of the masked, unnormalised weights W(r, k); on the last key
  block it copies the scratch into the [1, 1024, 1] output block.
-/
import proofs.«146835_j764504179346_1_alg».proof.Proof.PayWeight
import proofs.«146835_j764504179346_1_alg».proof.Proof.LibKeepdimsColumn

noncomputable section

namespace Cert.KernelIdeal.PayIdx

open Cert.KernelIdeal Cert.KernelIdeal.Gen Idealize.ShloMosaic Idealize.ShloMosaic.ValueIdx

/-- The first payload is the zero column. -/
theorem k0_pay1_at (j : S1024x1.Idx) : k0_pay1 (F := Ideal) j = 0 := by
  unfold k0_pay1
  rw [shapeCast_self]
  exact Ideal.ofBits_zero_f32

/-- The second payload, without its identity cast: the scratch plus the column of row sums. -/
theorem k0_pay2_eq (x0 x1 : Vec Ideal S1x1024x64 .f32) (x2 : Vec Ideal S1x1024x1024 .f32) (s : Vec Ideal S1024x1 .f32) :
    k0_pay2 (F := Ideal) x0 x1 x2 s
      = addf s (shapeCast S1024x1
          (multiReduction .add [1] S1024 (wmat x0 x1 x2) 0x00000000#32 reduces_S1024x1024_S1024 (.inl rfl) rfl)
          shapeCasts_S1024_S1024x1) :=
  shapeCast_self _ shapeCasts_S1024x1_S1024x1

/-- The second payload at row r: the scratch's entry plus the sum over the block's keys of the weights of row r. -/
theorem k0_pay2_at (x0 x1 : Vec Ideal S1x1024x64 .f32) (x2 : Vec Ideal S1x1024x1024 .f32) (s : Vec Ideal S1024x1 .f32)
    (r : Fin 1024) :
    k0_pay2 (F := Ideal) x0 x1 x2 s (ix2 r 0)
      = s (ix2 r 0) + ∑ k : Fin 1024,
          Ideal.exp ((∑ d : Fin 64, x0 (ix3 0 r d) * x1 (ix3 0 k d)) * Cert.Attn.scale) * x2 (ix3 0 r k) := by
  rw [k0_pay2_eq, addf_apply]
  refine congrArg (s (ix2 r 0) + ·) ?_
  refine (Cert.Lib.KeepdimsColumn.column_cast_at _ shapeCasts_S1024_S1024x1 r).trans ?_
  refine (laneSum_at _ r).trans ?_
  exact Finset.sum_congr rfl fun k _ => wmat_at x0 x1 x2 r k

/-- The third payload is the scratch column viewed [1, 1024, 1]. -/
theorem k0_pay3_at (v : Vec Ideal S1024x1 .f32) (r : Fin 1024) :
    k0_pay3 (F := Ideal) v (ix3 0 r 0) = v (ix2 r 0) :=
  shapeCast_ab_1ab_apply v shapeCasts_S1024x1_S1x1024x1 0 r 0

end Cert.KernelIdeal.PayIdx

end
-- ==== Proof.SplitSum.lean ====
/-
  A sum over 2048 terms, in any commutative additive monoid, is the sum of its first 1024 terms plus the sum of its
  last 1024 terms. The two halves' indices are spelt by their values, `k` and `1024 + k`, so that linear arithmetic
  can use them directly.
-/
import Mathlib.Algebra.BigOperators.Fin

namespace Cert.Attn

open scoped BigOperators

/-- The first half's index: `k` below 1024 as an index below 2048. -/
abbrev loHalf (k : Fin 1024) : Fin 2048 := ⟨k.val, by have := k.isLt; omega⟩
/-- The second half's index: `1024 + k`. -/
abbrev hiHalf (k : Fin 1024) : Fin 2048 := ⟨1024 + k.val, by have := k.isLt; omega⟩

theorem loHalf_val (k : Fin 1024) : (loHalf k).val = k.val := rfl
theorem hiHalf_val (k : Fin 1024) : (hiHalf k).val = 1024 + k.val := rfl

/-- A sum over 2048 terms is the sum over the first 1024 plus the sum over the last 1024. -/
theorem sum_split_2048 {α : Type*} [AddCommMonoid α] (f : Fin 2048 → α) :
    ∑ k : Fin 2048, f k = (∑ k : Fin 1024, f (loHalf k)) + ∑ k : Fin 1024, f (hiHalf k) :=
  Fin.sum_univ_add (a := 1024) (b := 1024) f

/-- The same with the indices written out. -/
theorem sum_split_2048' {α : Type*} [AddCommMonoid α] (f : Fin 2048 → α) :
    ∑ k : Fin 2048, f k
      = (∑ k : Fin 1024, f ⟨k.val, by have := k.isLt; omega⟩)
        + ∑ k : Fin 1024, f ⟨1024 + k.val, by have := k.isLt; omega⟩ :=
  sum_split_2048 f

/-- The same for a sum of products of two families (a row of weights against a column of values). -/
theorem sum_mul_split_2048 {α : Type*} [AddCommMonoid α] [Mul α] (f g : Fin 2048 → α) :
    ∑ k : Fin 2048, f k * g k
      = (∑ k : Fin 1024, f (loHalf k) * g (loHalf k)) + ∑ k : Fin 1024, f (hiHalf k) * g (hiHalf k) :=
  sum_split_2048 fun k => f k * g k

end Cert.Attn
-- ==== Proof.KI.Val0.lean ====
/-
  The row-sum call's output array after the run, as one function of the arrays the call is entered with.

  The call runs over a 48 × 2 × 2 grid (head-row bh, query block qb, key block kb, the key block fastest), point
  t = 4·bh + 2·qb + kb. At an even point (kb = 0) the accumulator is cleared and receives, for each of the block's 1024
  query rows, the sum of the masked, unnormalised weights over the first 1024 keys; at the odd point that follows
  (kb = 1) the sum over the last 1024 keys is added and the result is written back as block (bh, qb) of the [48, 2048, 1]
  output. A sum over 2048 keys is the sum over its two halves, so each written block is its block of the row sums
  Σ_k w(bh, q, k) over all keys, and the blocks written at the odd points tile the array.
-/
import proofs.«146835_j764504179346_1_alg».proof.Proof.KI.R0Pieces
import proofs.«146835_j764504179346_1_alg».proof.Proof.KI.ValDefs
import proofs.«146835_j764504179346_1_alg».proof.Proof.PayIdx0
import proofs.«146835_j764504179346_1_alg».proof.Proof.SplitSum
import proofs.«146835_j764504179346_1_alg».proof.Proof.Spec
import Idealize.ShloMosaic.Lib.Pipeline.Value

set_option maxRecDepth 16384

noncomputable section

namespace Cert.KernelIdeal.Fr

open Cert.KernelIdeal Cert.KernelIdeal.Gen Cert.KernelIdeal.PayIdx
open Idealize.ShloMosaic Idealize.ShloMosaic.TcCoe Idealize.ShloMosaic.ValueIdx
open Idealize.SL.Sem
open Idealize.ShloMosaic.Pipeline (Dat)

/-- The four windows' block indices at point t = 4·bh + 2·qb + kb of the 48 × 2 × 2 grid: queries (bh, qb, 0), keys
    (bh, kb, 0), mask (bh / 12, qb, kb), output (bh, qb, 0). -/
theorem idx_facts0 : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = t.val % 2 ∧ win0_1.index t (2 : Fin 3) = 0
    ∧ win0_2.index t (0 : Fin 3) = t.val / 48 ∧ win0_2.index t (1 : Fin 3) = t.val / 2 % 2 ∧ win0_2.index t (2 : Fin 3) = t.val % 2
    ∧ win0_3.index t (0 : Fin 3) = t.val / 4 ∧ win0_3.index t (1 : Fin 3) = t.val / 2 % 2 ∧ win0_3.index t (2 : Fin 3) = 0 :=
  (by decide +kernel : ∀ t : Fin grid0.N, _)

/-- The body's result over two key blocks of one query block, at a row: the sum of the first block's weights plus the
    sum of the second's. -/
theorem acc_two_blocks (q0 k0 q1 k1 : Vec Ideal S1x1024x64 .f32) (m0 m1 : Vec Ideal S1x1024x1024 .f32)
    (u : Fin 1) (r : Fin 1024) (z : Fin 1) :
    k0_pay3 (F := Ideal) (k0_pay2 (F := Ideal) q1 k1 m1 (k0_pay2 (F := Ideal) q0 k0 m0 (k0_pay1 (F := Ideal)))) (ix3 u r z)
      = (∑ k : Fin 1024, Ideal.exp ((∑ d : Fin 64, q0 (ix3 0 r d) * k0 (ix3 0 k d)) * Cert.Attn.scale) * m0 (ix3 0 r k))
        + ∑ k : Fin 1024, Ideal.exp ((∑ d : Fin 64, q1 (ix3 0 r d) * k1 (ix3 0 k d)) * Cert.Attn.scale) * m1 (ix3 0 r k) := by
  obtain rfl : u = 0 := Subsingleton.elim _ _
  obtain rfl : z = 0 := Subsingleton.elim _ _
  rw [k0_pay3_at, k0_pay2_at, k0_pay2_at, k0_pay1_at, zero_add]

/-- One block's sum of weights at a row, when the block's entries are the arrays' at head-row bh, query q and the
    keys half k: the arrays' weights summed over those keys. -/
theorem blocksum_of (Q K : S48x2048x64.Idx → EReal) (M : S4x2048x2048.Idx → EReal)
    (x0 x1 : Vec Ideal S1x1024x64 .f32) (x2 : Vec Ideal S1x1024x1024 .f32)
    (bh : Fin 48) (q : Fin 2048) (r : Fin 1024) (half : Fin 1024 → Fin 2048)
    (h0 : ∀ d, x0 (ix3 0 r d) = Q (ix3 bh q d)) (h1 : ∀ k d, x1 (ix3 0 k d) = K (ix3 bh (half k) d))
    (h2 : ∀ k, x2 (ix3 0 r k) = M (ix3 (batchOf bh) q (half k))) :
    (∑ k : Fin 1024, Ideal.exp ((∑ d : Fin 64, x0 (ix3 0 r d) * x1 (ix3 0 k d)) * Cert.Attn.scale) * x2 (ix3 0 r k))
      = ∑ k : Fin 1024, w3 Q K M bh q (half k) := by
  refine Finset.sum_congr rfl fun k _ => ?_
  unfold w3
  rw [h2 k]
  refine congrArg (fun x => Ideal.exp (x * Cert.Attn.scale) * _) ?_
  exact Finset.sum_congr rfl fun d _ => by rw [h0 d, h1 k d]

section
variable (V : (c : Dev nD) → (b : Ref sig .tc) → Buf (Elt Ideal) ((c : Thread nD τ).loc b))

/-- The query block at point t, entry (0, r, d): the query array at head-row t / 4, row (t / 2 % 2) · 1024 + r. -/
theorem qblk_at (c : Dev nD) (t : Fin cfg0.N) (bh : Fin 48) (q : Fin 2048) (r : Fin 1024) (d : Fin 64)
    (hbh : bh.val = t.val / 4) (hq : q.val = (t.val / 2 % 2) * 1024 + r.val) :
    (iblk0 V c 0 t : Vec Ideal S1x1024x64 .f32) (ix3 0 r d) = V c main_v0 (ix3 bh q d) := by
  obtain ⟨e0, e1, e2, -⟩ := idx_facts0 t
  unfold iblk0
  rw [View.read_apply]
  show V c main_v0 (((cfg0.win 0).blk t).view.emb (ix3 0 r d)) = V c main_v0 (ix3 bh q d)
  refine congrArg (V c main_v0) (funext fun a => Fin.ext ?_)
  match a with
  | ⟨0, _⟩ => show win0_0.index t (0 : Fin 3) * 1 + 1 * 0 = bh.val; omega
  | ⟨1, _⟩ => show win0_0.index t (1 : Fin 3) * 1024 + 1 * r.val = q.val; omega
  | ⟨2, _⟩ => show win0_0.index t (2 : Fin 3) * 64 + 1 * d.val = d.val; omega

/-- The key block at point t, entry (0, s, d): the key array at head-row t / 4, row (t % 2) · 1024 + s. -/
theorem kblk_at (c : Dev nD) (t : Fin cfg0.N) (bh : Fin 48) (k : Fin 2048) (s : Fin 1024) (d : Fin 64)
    (hbh : bh.val = t.val / 4) (hk : k.val = (t.val % 2) * 1024 + s.val) :
    (iblk0 V c 1 t : Vec Ideal S1x1024x64 .f32) (ix3 0 s d) = V c main_v1 (ix3 bh k d) := by
  obtain ⟨-, -, -, e0, e1, e2, -⟩ := idx_facts0 t
  unfold iblk0
  rw [View.read_apply]
  show V c main_v1 (((cfg0.win 1).blk t).view.emb (ix3 0 s d)) = V c main_v1 (ix3 bh k d)
  refine congrArg (V c main_v1) (funext fun a => Fin.ext ?_)
  match a with
  | ⟨0, _⟩ => show win0_1.index t (0 : Fin 3) * 1 + 1 * 0 = bh.val; omega
  | ⟨1, _⟩ => show win0_1.index t (1 : Fin 3) * 1024 + 1 * s.val = k.val; omega
  | ⟨2, _⟩ => show win0_1.index t (2 : Fin 3) * 64 + 1 * d.val = d.val; omega

/-- The mask block at point t, entry (0, r, s): the mask array at batch entry t / 48, row (t / 2 % 2) · 1024 + r,
    column (t % 2) · 1024 + s. -/
theorem mblk_at (c : Dev nD) (t : Fin cfg0.N) (b : Fin 4) (q k : Fin 2048) (r s : Fin 1024)
    (hb : b.val = t.val / 48) (hq : q.val = (t.val / 2 % 2) * 1024 + r.val) (hk : k.val = (t.val % 2) * 1024 + s.val) :
    (iblk0 V c 2 t : Vec Ideal S1x1024x1024 .f32) (ix3 0 r s) = V c main_v3 (ix3 b q k) := by
  obtain ⟨-, -, -, -, -, -, e0, e1, e2, -⟩ := idx_facts0 t
  unfold iblk0
  rw [View.read_apply]
  show V c main_v3 (((cfg0.win 2).blk t).view.emb (ix3 0 r s)) = V c main_v3 (ix3 b q k)
  refine congrArg (V c main_v3) (funext fun a => Fin.ext ?_)
  match a with
  | ⟨0, _⟩ => show win0_2.index t (0 : Fin 3) * 1 + 1 * 0 = b.val; omega
  | ⟨1, _⟩ => show win0_2.index t (1 : Fin 3) * 1024 + 1 * r.val = q.val; omega
  | ⟨2, _⟩ => show win0_2.index t (2 : Fin 3) * 1024 + 1 * s.val = k.val; omega

/-- The three input blocks at point t, at their literal vector types. -/
abbrev qB (c : Dev nD) (t : Fin cfg0.N) : Vec Ideal S1x1024x64 .f32 := iblk0 V c 0 t
abbrev kB (c : Dev nD) (t : Fin cfg0.N) : Vec Ideal S1x1024x64 .f32 := iblk0 V c 1 t
abbrev mB (c : Dev nD) (t : Fin cfg0.N) : Vec Ideal S1x1024x1024 .f32 := iblk0 V c 2 t

/-- One point's block of weights summed along its 1024 keys, at a row: the arrays' weights summed over that point's
    half of the keys. -/
theorem blocksum_at (c : Dev nD) (t : Fin cfg0.N) (bh : Fin 48) (q : Fin 2048) (r : Fin 1024) (half : Fin 1024 → Fin 2048)
    (hbh : bh.val = t.val / 4) (hq : q.val = (t.val / 2 % 2) * 1024 + r.val)
    (hh : ∀ k, (half k).val = (t.val % 2) * 1024 + k.val) :
    (∑ k : Fin 1024, Ideal.exp ((∑ d : Fin 64, qB V c t (ix3 0 r d) * kB V c t (ix3 0 k d)) * Cert.Attn.scale)
        * mB V c t (ix3 0 r k))
      = ∑ k : Fin 1024, w3 (V c main_v0) (V c main_v1) (V c main_v3) bh q (half k) :=
  blocksum_of (V c main_v0) (V c main_v1) (V c main_v3) (qB V c t) (kB V c t) (mB V c t) bh q r half
    (fun d => qblk_at V c t bh q r d hbh hq) (fun k d => kblk_at V c t bh (half k) k d hbh (hh k))
    (fun k => mblk_at V c t (batchOf bh) q (half k) r k (by show bh.val / 12 = t.val / 48; omega) hq (hh k))

/-- After an even point the accumulator holds that point's row sums added to the zero column. -/
theorem acc_after_even (c : Dev nD) (n : ℕ) (hn : n < cfg0.N) (h0 : n % 2 = 0) :
    (outsAt0 V c n hn).2
      = k0_pay2 (F := Ideal) (qB V c ⟨n, hn⟩) (kB V c ⟨n, hn⟩) (mB V c ⟨n, hn⟩) (k0_pay1 (F := Ideal)) := by
  have h1 : ¬n % 2 = 1 := by omega
  show (outsAt0 V c (⟨n, hn⟩ : Fin cfg0.N).val (⟨n, hn⟩ : Fin cfg0.N).isLt).2 = _
  rw [outsAt0_A V c ⟨n, hn⟩ h0 h1]
  dsimp only
  rw [sout0_A_0_eq]

/-- After an odd point the output window's buffer holds, reshaped, the sum of the two key blocks' row sums. -/
theorem out_after_odd (c : Dev nD) (t : Fin cfg0.N) (h1 : t.val % 2 = 1) (hp : t.val - 1 < cfg0.N) :
    (dat0 (F := Ideal) V c).after 3 t
      = k0_pay3 (F := Ideal) (k0_pay2 (F := Ideal) (qB V c t) (kB V c t) (mB V c t)
          (k0_pay2 (F := Ideal) (qB V c ⟨t.val - 1, hp⟩) (kB V c ⟨t.val - 1, hp⟩) (mB V c ⟨t.val - 1, hp⟩) (k0_pay1 (F := Ideal)))) := by
  have h0 : ¬t.val % 2 = 0 := by omega
  rw [after0_3, outsAt0_B V c t h0 h1]
  dsimp only
  rw [out0_B_3_eq, acc_after_even V c (t.val - 1) hp (by omega)]

/-- What an odd point writes back is its block of the row sums. -/
theorem flushed0_3_eq (c : Dev nD) (t : Fin cfg0.N) (hf : (cfg0.win 3).flush t = true) :
    (dat0 (F := Ideal) V c).flushed 3 t
      = ((cfg0.win 3).blk t).view.read (Elt Ideal) (rows3 (V c main_v0) (V c main_v1) (V c main_v3)) := by
  have h1 : t.val % 2 = 1 := (flush0_3 t).mp hf
  have hN : t.val < 192 := lt_of_lt_of_eq t.isLt (show cfg0.N = 192 from N_0)
  have hp : t.val - 1 < cfg0.N := Nat.lt_of_le_of_lt (Nat.sub_le _ _) t.isLt
  obtain ⟨-, -, -, -, -, -, -, -, -, e0, e1, e2⟩ := idx_facts0 t
  show (cfg0.win 3).cut (grid0.coords t) ((dat0 (F := Ideal) V c).after 3 t) = _
  rw [out_after_odd V c t h1 hp]
  funext y
  obtain ⟨u, r, z, rfl⟩ : ∃ (u : Fin 1) (r : Fin 1024) (z : Fin 1), y = ix3 u r z := ⟨y 0, y 1, y 2, eq_ix3 y⟩
  have hi : ((cfg0.win 3).blk t).view.emb (ix3 u r z)
      = ix3 (⟨t.val / 4, by omega⟩ : Fin 48) (⟨(t.val / 2 % 2) * 1024 + r.val, by have := r.isLt; omega⟩ : Fin 2048) (0 : Fin 1) := by
    funext a
    apply Fin.ext
    match a with
    | ⟨0, _⟩ => show win0_3.index t (0 : Fin 3) * 1 + 1 * u.val = t.val / 4; have := u.isLt; omega
    | ⟨1, _⟩ => show win0_3.index t (1 : Fin 3) * 1024 + 1 * r.val = (t.val / 2 % 2) * 1024 + r.val; omega
    | ⟨2, _⟩ => show win0_3.index t (2 : Fin 3) * 1 + 1 * z.val = 0; have := z.isLt; omega
  show k0_pay3 (F := Ideal) _ (ix3 u r z) = rows3 (V c main_v0) (V c main_v1) (V c main_v3) (((cfg0.win 3).blk t).view.emb (ix3 u r z))
  rw [hi]
  refine (acc_two_blocks _ _ _ _ _ _ u r z).trans ?_
  rw [blocksum_at V c ⟨t.val - 1, hp⟩ ⟨t.val / 4, by omega⟩ ⟨(t.val / 2 % 2) * 1024 + r.val, by have := r.isLt; omega⟩ r Cert.Attn.loHalf
      (by show t.val / 4 = (t.val - 1) / 4; omega) (by show (t.val / 2 % 2) * 1024 + r.val = ((t.val - 1) / 2 % 2) * 1024 + r.val; omega)
      (fun k => by show k.val = ((t.val - 1) % 2) * 1024 + k.val; omega),
    blocksum_at V c t ⟨t.val / 4, by omega⟩ ⟨(t.val / 2 % 2) * 1024 + r.val, by have := r.isLt; omega⟩ r Cert.Attn.hiHalf rfl rfl
      (fun k => by show 1024 + k.val = (t.val % 2) * 1024 + k.val; omega)]
  exact (Cert.Attn.sum_split_2048 _).symm

end

/-- An index of the output array is in point t's block iff each coordinate is in the block's range on its axis. -/
theorem mem_blk0_3 (t : Fin cfg0.N) (i : S48x2048x1.Idx) :
    i ∈ ((cfg0.win 3).blk t).view.set
      ↔ ∀ a : Fin 3, win0_3.index t a * S1x1024x1.size a ≤ (i a).val
          ∧ (i a).val < win0_3.index t a * S1x1024x1.size a + S1x1024x1.size a := by
  show i ∈ ((View.whole main_v4).slice (win0_3.rect t)).set ↔ _
  rw [View.set_slice_whole, Rect.mem_set_unit]
  exact Iff.rfl

/-- Every index of the output array is in the block some odd point writes back: row q of head-row bh in that of
    point 4·bh + 2·(q / 1024) + 1. -/
theorem cover0_3 (i : S48x2048x1.Idx) :
    ∃ t : Fin cfg0.N, (cfg0.win 3).flush t = true ∧ i ∈ ((cfg0.win 3).blk t).view.set := by
  have hN : cfg0.N = 192 := N_0
  have hi0 : (i 0).val < 48 := (i 0).isLt
  have hi1 : (i 1).val < 2048 := (i 1).isLt
  have hi2 : (i 2).val < 1 := (i 2).isLt
  refine ⟨⟨(i 0).val * 4 + (i 1).val / 1024 * 2 + 1, by omega⟩, (flush0_3 _).mpr (by show ((i 0).val * 4 + (i 1).val / 1024 * 2 + 1) % 2 = 1; omega), ?_⟩
  obtain ⟨-, -, -, -, -, -, -, -, -, e0, e1, e2⟩ :=
    idx_facts0 ⟨(i 0).val * 4 + (i 1).val / 1024 * 2 + 1, by omega⟩
  rw [mem_blk0_3]
  intro a
  match a with
  | ⟨0, _⟩ =>
    show win0_3.index _ (0 : Fin 3) * 1 ≤ (i 0).val ∧ (i 0).val < win0_3.index _ (0 : Fin 3) * 1 + 1
    rw [e0]; show ((i 0).val * 4 + (i 1).val / 1024 * 2 + 1) / 4 * 1 ≤ (i 0).val ∧ (i 0).val < ((i 0).val * 4 + (i 1).val / 1024 * 2 + 1) / 4 * 1 + 1
    omega
  | ⟨1, _⟩ =>
    show win0_3.index _ (1 : Fin 3) * 1024 ≤ (i 1).val ∧ (i 1).val < win0_3.index _ (1 : Fin 3) * 1024 + 1024
    rw [e1]; show ((i 0).val * 4 + (i 1).val / 1024 * 2 + 1) / 2 % 2 * 1024 ≤ (i 1).val ∧ (i 1).val < ((i 0).val * 4 + (i 1).val / 1024 * 2 + 1) / 2 % 2 * 1024 + 1024
    omega
  | ⟨2, _⟩ =>
    show win0_3.index _ (2 : Fin 3) * 1 ≤ (i 2).val ∧ (i 2).val < win0_3.index _ (2 : Fin 3) * 1 + 1
    rw [e2]; omega

section
variable (V : (c : Dev nD) → (b : Ref sig .tc) → Buf (Elt Ideal) ((c : Thread nD τ).loc b))

/-- The output array after the row-sum call: the row sums over all 2048 keys of the arrays the call was entered with. -/
theorem final0_3 (c : Dev nD) :
    (dat0 (F := Ideal) V c).arrAt 3 cfg0.N = rows3 (V c main_v0) (V c main_v1) (V c main_v3) :=
  (dat0 (F := Ideal) V c).arrAt_eq_of_cover 3 (rows3 (V c main_v0) (V c main_v1) (V c main_v3))
    (fun t hf => flushed0_3_eq V c t hf) cover0_3

end

end Cert.KernelIdeal.Fr

end
-- ==== Proof.KI.Val1Blocks.lean ====
/-
  The attention call's five input blocks, read at an index. The grid is 48 head rows × 2 query blocks × 2 key blocks,
  the key block fastest: point t = 4·bh + 2·qb + kb. The query, row-sum, weights and context windows sit at block
  (bh, qb, ·), the key and value windows at block (bh, kb, 0), the mask window at block (bh / 12, qb, kb). An entry of
  a block sits in its array, on each axis, at the block index times the block size plus its own coordinate.
-/
import proofs.«146835_j764504179346_1_alg».proof.Proof.KI.R1Frame
import proofs.«146835_j764504179346_1_alg».proof.Proof.KI.ValDefs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

/-- The seven windows' block indices at point t. -/
theorem idx_facts1 : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 3) = t.val / 48 ∧ win1_3.index t (1 : Fin 3) = t.val / 2 % 2 ∧ win1_3.index t (2 : Fin 3) = t.val % 2
    ∧ win1_4.index t (0 : Fin 3) = t.val / 4 ∧ win1_4.index t (1 : Fin 3) = t.val / 2 % 2 ∧ win1_4.index t (2 : Fin 3) = 0 :=
  (by decide +kernel : ∀ t : Fin grid1.N, _)

/-- The two output windows' block indices at point t. -/
theorem idx_facts1_out : ∀ t : Fin cfg1.N,
    win1_5.index t (0 : Fin 3) = t.val / 4 ∧ win1_5.index t (1 : Fin 3) = t.val / 2 % 2 ∧ win1_5.index t (2 : Fin 3) = t.val % 2
    ∧ win1_6.index t (0 : Fin 3) = t.val / 4 ∧ win1_6.index t (1 : Fin 3) = t.val / 2 % 2 ∧ win1_6.index t (2 : Fin 3) = 0 :=
  (by decide +kernel : ∀ t : Fin grid1.N, _)

/-- A point is below 192. -/
theorem point1_lt (t : Fin cfg1.N) : t.val < 192 := lt_of_lt_of_eq t.isLt (show cfg1.N = 192 from N_1)

/-- A normalised weight spelt over blocks whose entries are the arrays' is the arrays' normalised weight. -/
theorem tile1_val (Q K : S48x2048x64.Idx → EReal) (M : S4x2048x2048.Idx → EReal) (Lr : S48x2048x1.Idx → EReal)
    (x0 x1 : Vec Ideal S1x1024x64 .f32) (x3 : Vec Ideal S1x1024x1024 .f32) (x4 : Vec Ideal S1x1024x1 .f32)
    (bh : Fin 48) (q k : Fin 2048) (r s : Fin 1024)
    (h0 : ∀ d : Fin 64, x0 (ix3 0 r d) = Q (ix3 bh q d)) (h1 : ∀ d : Fin 64, x1 (ix3 0 s d) = K (ix3 bh k d))
    (h3 : x3 (ix3 0 r s) = M (ix3 (batchOf bh) q k)) (h4 : x4 (ix3 0 r 0) = Lr (ix3 bh q (0 : Fin 1))) :
    Ideal.div (Ideal.exp ((∑ d : Fin 64, x0 (ix3 0 r d) * x1 (ix3 0 s d)) * Cert.Attn.scale) * x3 (ix3 0 r s))
        (x4 (ix3 0 r 0) + Cert.Attn.eps)
      = attn3 Q K M Lr (ix3 bh q k) := by
  show _ = Ideal.div (w3 Q K M bh q k) (Lr (ix3 bh q (0 : Fin 1)) + Cert.Attn.eps)
  unfold w3
  rw [h3, h4]
  refine congrArg (fun x => Ideal.div (Ideal.exp (x * Cert.Attn.scale) * _) _) ?_
  refine Finset.sum_congr rfl fun d _ => ?_
  rw [h0 d, h1 d]

section
variable (V : (c : Dev nD) → (b : Ref sig .tc) → Buf (Elt Ideal) ((c : Thread nD τ).loc b))

/-- The query block at point t, entry (0, r, d): the query array at head row t / 4, row (t / 2 % 2) · 1024 + r. -/
theorem qblk1_at (c : Dev nD) (t : Fin cfg1.N) (bh : Fin 48) (q : Fin 2048) (r : Fin 1024) (d : Fin 64)
    (hbh : bh.val = t.val / 4) (hq : q.val = (t.val / 2 % 2) * 1024 + r.val) :
    (iblk1 V c 0 t : Vec Ideal S1x1024x64 .f32) (ix3 0 r d) = V c main_v0 (ix3 bh q d) := by
  obtain ⟨e0, e1, e2, -⟩ := idx_facts1 t
  unfold iblk1
  rw [View.read_apply]
  show V c main_v0 (((cfg1.win 0).blk t).view.emb (ix3 0 r d)) = V c main_v0 (ix3 bh q d)
  refine congrArg (V c main_v0) (funext fun a => Fin.ext ?_)
  match a with
  | ⟨0, _⟩ => show win1_0.index t (0 : Fin 3) * 1 + 1 * 0 = bh.val; omega
  | ⟨1, _⟩ => show win1_0.index t (1 : Fin 3) * 1024 + 1 * r.val = q.val; omega
  | ⟨2, _⟩ => show win1_0.index t (2 : Fin 3) * 64 + 1 * d.val = d.val; omega

/-- The key block at point t, entry (0, s, d): the key array at head row t / 4, row (t % 2) · 1024 + s. -/
theorem kblk1_at (c : Dev nD) (t : Fin cfg1.N) (bh : Fin 48) (k : Fin 2048) (s : Fin 1024) (d : Fin 64)
    (hbh : bh.val = t.val / 4) (hk : k.val = (t.val % 2) * 1024 + s.val) :
    (iblk1 V c 1 t : Vec Ideal S1x1024x64 .f32) (ix3 0 s d) = V c main_v1 (ix3 bh k d) := by
  obtain ⟨-, -, -, e0, e1, e2, -⟩ := idx_facts1 t
  unfold iblk1
  rw [View.read_apply]
  show V c main_v1 (((cfg1.win 1).blk t).view.emb (ix3 0 s d)) = V c main_v1 (ix3 bh k d)
  refine congrArg (V c main_v1) (funext fun a => Fin.ext ?_)
  match a with
  | ⟨0, _⟩ => show win1_1.index t (0 : Fin 3) * 1 + 1 * 0 = bh.val; omega
  | ⟨1, _⟩ => show win1_1.index t (1 : Fin 3) * 1024 + 1 * s.val = k.val; omega
  | ⟨2, _⟩ => show win1_1.index t (2 : Fin 3) * 64 + 1 * d.val = d.val; omega

/-- The value block at point t, entry (0, s, d): the value array at head row t / 4, row (t % 2) · 1024 + s. -/
theorem vblk1_at (c : Dev nD) (t : Fin cfg1.N) (bh : Fin 48) (k : Fin 2048) (s : Fin 1024) (d : Fin 64)
    (hbh : bh.val = t.val / 4) (hk : k.val = (t.val % 2) * 1024 + s.val) :
    (iblk1 V c 2 t : Vec Ideal S1x1024x64 .f32) (ix3 0 s d) = V c main_v2 (ix3 bh k d) := by
  obtain ⟨-, -, -, -, -, -, e0, e1, e2, -⟩ := idx_facts1 t
  unfold iblk1
  rw [View.read_apply]
  show V c main_v2 (((cfg1.win 2).blk t).view.emb (ix3 0 s d)) = V c main_v2 (ix3 bh k d)
  refine congrArg (V c main_v2) (funext fun a => Fin.ext ?_)
  match a with
  | ⟨0, _⟩ => show win1_2.index t (0 : Fin 3) * 1 + 1 * 0 = bh.val; omega
  | ⟨1, _⟩ => show win1_2.index t (1 : Fin 3) * 1024 + 1 * s.val = k.val; omega
  | ⟨2, _⟩ => show win1_2.index t (2 : Fin 3) * 64 + 1 * d.val = d.val; omega

/-- The mask block at point t, entry (0, r, s): the mask array at batch entry t / 48, row (t / 2 % 2) · 1024 + r,
    column (t % 2) · 1024 + s. -/
theorem mblk1_at (c : Dev nD) (t : Fin cfg1.N) (b : Fin 4) (q k : Fin 2048) (r s : Fin 1024)
    (hb : b.val = t.val / 48) (hq : q.val = (t.val / 2 % 2) * 1024 + r.val) (hk : k.val = (t.val % 2) * 1024 + s.val) :
    (iblk1 V c 3 t : Vec Ideal S1x1024x1024 .f32) (ix3 0 r s) = V c main_v3 (ix3 b q k) := by
  obtain ⟨-, -, -, -, -, -, -, -, -, e0, e1, e2, -⟩ := idx_facts1 t
  unfold iblk1
  rw [View.read_apply]
  show V c main_v3 (((cfg1.win 3).blk t).view.emb (ix3 0 r s)) = V c main_v3 (ix3 b q k)
  refine congrArg (V c main_v3) (funext fun a => Fin.ext ?_)
  match a with
  | ⟨0, _⟩ => show win1_3.index t (0 : Fin 3) * 1 + 1 * 0 = b.val; omega
  | ⟨1, _⟩ => show win1_3.index t (1 : Fin 3) * 1024 + 1 * r.val = q.val; omega
  | ⟨2, _⟩ => show win1_3.index t (2 : Fin 3) * 1024 + 1 * s.val = k.val; omega

/-- The row-sum block at point t, entry (0, r, 0): the row-sum array at head row t / 4, row (t / 2 % 2) · 1024 + r. -/
theorem lblk1_at (c : Dev nD) (t : Fin cfg1.N) (bh : Fin 48) (q : Fin 2048) (r : Fin 1024)
    (hbh : bh.val = t.val / 4) (hq : q.val = (t.val / 2 % 2) * 1024 + r.val) :
    (iblk1 V c 4 t : Vec Ideal S1x1024x1 .f32) (ix3 0 r 0) = V c main_v4 (ix3 bh q (0 : Fin 1)) := by
  obtain ⟨-, -, -, -, -, -, -, -, -, -, -, -, e0, e1, e2⟩ := idx_facts1 t
  unfold iblk1
  rw [View.read_apply]
  show V c main_v4 (((cfg1.win 4).blk t).view.emb (ix3 0 r 0)) = V c main_v4 (ix3 bh q (0 : Fin 1))
  refine congrArg (V c main_v4) (funext fun a => Fin.ext ?_)
  match a with
  | ⟨0, _⟩ => show win1_4.index t (0 : Fin 3) * 1 + 1 * 0 = bh.val; omega
  | ⟨1, _⟩ => show win1_4.index t (1 : Fin 3) * 1024 + 1 * r.val = q.val; omega
  | ⟨2, _⟩ => show win1_4.index t (2 : Fin 3) * 1 + 1 * 0 = 0; omega

end

end Cert.KernelIdeal.Fr

end
-- ==== Proof.KI.R1Pieces.lean ====
/-
  The attention kernel's found pieces, read back as values. Each case of the body leaves, in the weights window's
  buffer, the context window's buffer and the context accumulator, the payload of a whole-buffer store; the loads that
  feed it read whole buffers, so each piece is the body's arithmetic applied to the inputs' blocks and to what the
  accumulator held.
-/
import proofs.«146835_j764504179346_1_alg».proof.Proof.KI.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A rank-2 rectangle's zero offsets, as the constant function. -/
theorem offs2_zero1 : (![0, 0] : Fin 2 → Nat) = fun _ => 0 := funext fun a => by fin_cases a <;> rfl
/-- A rank-3 rectangle's zero offsets, as the constant function. -/
theorem offs3_zero1 : (![0, 0, 0] : Fin 3 → Nat) = fun _ => 0 := funext fun a => by fin_cases a <;> rfl

/-- At a first key block the weights window's buffer is left holding this tile's normalised weights: its one
    whole-buffer store, whose loads read the whole input buffers. -/
theorem out1_A_5_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) :
    out1_A_5 c i arg3 harg3 arg4 harg4 arg5 harg5 arg6 harg6 arg7 harg7 arg8 harg8 arg9 harg9 arg10 harg10 hc0 hc1 x0 x1 x2 x3 x4 = k1_pay5 x0 x1 x3 x4 := by
  unfold out1_A_5
  rw [View.read_writes_eq_canon _ _ _ (cover1_A_5 c i arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_unit_zero (S := S1x1024x1024) offs3_zero1]
  simp only [View.readAt_eq_ld, harg3.read_unread, harg4.read_unread, harg5.read_unread, harg6.read_unread,
    harg7.read_unread, harg10.read_unread,
    View.ld_unit_zero (S := S1x1024x64) offs3_zero1, View.ld_unit_zero (S := S1x1024x1024) offs3_zero1,
    View.ld_unit_zero (S := S1x1024x1) offs3_zero1, View.ld_unit_zero (S := S1024x64) offs2_zero1]

/-- At a first key block the context accumulator is cleared, read back, and left holding this tile's weights times
    the value block, added to the zero block. -/
theorem sout1_A_0_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : cond1_0 i) (hc1 : ¬cond1_1 i)
    (x0 x1 x2 : Vec F S1x1024x64 .f32) (x3 : Vec F S1x1024x1024 .f32) (x4 : Vec F S1x1024x1 .f32) :
    sout1_A_0 c i arg3 harg3 arg4 harg4 arg5 harg5 arg6 harg6 arg7 harg7 arg8 harg8 arg9 harg9 arg10 harg10 hc0 hc1 x0 x1 x2 x3 x4 = k1_pay1 (k1_pay4 x0 x1 x3 x4) (k1_pay6 x2) (k1_pay3 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S1024x64) offs2_zero1, View.readCov_unit_zero (S := S1024x64) _ offs2_zero1]
  simp only [View.readAt_eq_ld, harg3.read_unread, harg4.read_unread, harg5.read_unread, harg6.read_unread,
    harg7.read_unread, harg10.read_unread,
    View.ld_unit_zero (S := S1x1024x64) offs3_zero1, View.ld_unit_zero (S := S1x1024x1024) offs3_zero1,
    View.ld_unit_zero (S := S1x1024x1) offs3_zero1, View.ld_unit_zero (S := S1024x64) offs2_zero1]

/-- At a last key block the weights window's buffer is left holding this tile's normalised weights. -/
theorem out1_B_5_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) :
    out1_B_5 c i arg3 harg3 arg4 harg4 arg5 harg5 arg6 harg6 arg7 harg7 arg8 harg8 arg9 harg9 arg10 harg10 hc0 hc1 x0 x1 x2 x3 x4 xs0 = k1_pay5 x0 x1 x3 x4 := by
  unfold out1_B_5
  rw [View.read_writes_eq_canon _ _ _ (cover1_B_5 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero (S := S1x1024x1024) offs3_zero1]
  simp only [View.readAt_eq_ld, harg3.read_unread, harg4.read_unread, harg5.read_unread, harg6.read_unread,
    harg7.read_unread, harg10.read_unread,
    View.ld_unit_zero (S := S1x1024x64) offs3_zero1, View.ld_unit_zero (S := S1x1024x1024) offs3_zero1,
    View.ld_unit_zero (S := S1x1024x1) offs3_zero1, View.ld_unit_zero (S := S1024x64) offs2_zero1]

/-- At a last key block the context accumulator is left holding this tile's weights times the value block, added to
    what it held. -/
theorem sout1_B_0_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) :
    sout1_B_0 c i arg3 harg3 arg4 harg4 arg5 harg5 arg6 harg6 arg7 harg7 arg8 harg8 arg9 harg9 arg10 harg10 hc0 hc1 x0 x1 x2 x3 x4 xs0 = k1_pay1 (k1_pay4 x0 x1 x3 x4) (k1_pay6 x2) xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero (S := S1024x64) offs2_zero1]
  simp only [View.readAt_eq_ld, harg3.read_unread, harg4.read_unread, harg5.read_unread, harg6.read_unread,
    harg7.read_unread, harg10.read_unread,
    View.ld_unit_zero (S := S1x1024x64) offs3_zero1, View.ld_unit_zero (S := S1x1024x1024) offs3_zero1,
    View.ld_unit_zero (S := S1x1024x1) offs3_zero1, View.ld_unit_zero (S := S1024x64) offs2_zero1]

/-- At a last key block the context window's buffer is left holding the accumulator's new contents, reshaped. -/
theorem out1_B_6_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1024 .f32) (harg8 : arg8.IsWhole) (arg9 : Memref sig .tc .vmem S1x1024x64 .f32) (harg9 : arg9.IsWhole) (arg10 : Memref sig .tc .vmem S1024x64 .f32) (harg10 : arg10.IsWhole) (hc0 : ¬cond1_0 i) (hc1 : cond1_1 i)
    (x0 x1 x2 : Vec F S1x1024x64 .f32) (x3 : Vec F S1x1024x1024 .f32) (x4 : Vec F S1x1024x1 .f32) (xs0 : Vec F S1024x64 .f32) :
    out1_B_6 c i arg3 harg3 arg4 harg4 arg5 harg5 arg6 harg6 arg7 harg7 arg8 harg8 arg9 harg9 arg10 harg10 hc0 hc1 x0 x1 x2 x3 x4 xs0 = k1_pay2 (k1_pay1 (k1_pay4 x0 x1 x3 x4) (k1_pay6 x2) xs0) := by
  unfold out1_B_6
  rw [View.read_writes_eq_canon _ _ _ (cover1_B_6 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero (S := S1x1024x64) offs3_zero1, View.readCov_unit_zero (S := S1024x64) _ offs2_zero1]
  simp only [View.readAt_eq_ld, harg3.read_unread, harg4.read_unread, harg5.read_unread, harg6.read_unread,
    harg7.read_unread, harg10.read_unread,
    View.ld_unit_zero (S := S1x1024x64) offs3_zero1, View.ld_unit_zero (S := S1x1024x1024) offs3_zero1,
    View.ld_unit_zero (S := S1x1024x1) offs3_zero1, View.ld_unit_zero (S := S1024x64) offs2_zero1]

end Cert.KernelIdeal.Fr

end
-- ==== Proof.PayIdx1.lean ====
/-
  The attention kernel's six payloads read at an index on the extended reals.

  The body keeps a [1024, 64] scratch accumulator. On the first key block it writes zeros into it. On every key block
  it forms the normalised weights A(r, k) = W(r, k) / (ℓ(r) + ε) from the masked, unnormalised weights W and the
  [1, 1024, 1] block ℓ of row sums, stores them as a [1, 1024, 1024] block, and adds to the scratch's entry (r, d) the
  sum over the block's keys of A(r, k) · V(k, d), V the [1, 1024, 64] value block viewed [1024, 64]. On the last key
  block it copies the scratch into the [1, 1024, 64] output block.
-/
import proofs.«146835_j764504179346_1_alg».proof.Proof.PayWeight
import proofs.«146835_j764504179346_1_alg».proof.Proof.LibKeepdimsColumn

noncomputable section

namespace Cert.KernelIdeal.PayIdx

open Cert.KernelIdeal Cert.KernelIdeal.Gen Idealize.ShloMosaic Idealize.ShloMosaic.ValueIdx

/-- The third payload is the zero matrix. -/
theorem k1_pay3_at (j : S1024x64.Idx) : k1_pay3 (F := Ideal) j = 0 := by
  unfold k1_pay3
  rw [shapeCast_self]
  exact Ideal.ofBits_zero_f32

/-- The fourth payload in terms of the weights: W divided by the row sums' column, offset by ε and broadcast along the
    keys. -/
theorem k1_pay4_eq (x0 x1 : Vec Ideal S1x1024x64 .f32) (x3 : Vec Ideal S1x1024x1024 .f32) (l : Vec Ideal S1x1024x1 .f32) :
    k1_pay4 (F := Ideal) x0 x1 x3 l
      = divf (wmat x0 x1 x3)
          (broadcastTo S1024x1024
            (addf (shapeCast S1024x1 l shapeCasts_S1x1024x1_S1024x1)
              (broadcast S1024x1 (Scalar.ofBits (F := Ideal) .f32 0x322BCC77#32)))
            broadcasts_S1024x1_S1024x1024) := rfl

/-- The fourth payload at (r, k): the weight over the row's sum plus ε. -/
theorem k1_pay4_at (x0 x1 : Vec Ideal S1x1024x64 .f32) (x3 : Vec Ideal S1x1024x1024 .f32) (l : Vec Ideal S1x1024x1 .f32)
    (r k : Fin 1024) :
    k1_pay4 (F := Ideal) x0 x1 x3 l (ix2 r k)
      = Ideal.div (Ideal.exp ((∑ d : Fin 64, x0 (ix3 0 r d) * x1 (ix3 0 k d)) * Cert.Attn.scale) * x3 (ix3 0 r k))
          (l (ix3 0 r 0) + Cert.Attn.eps) := by
  rw [k1_pay4_eq, divf_apply, wmat_at]
  refine congrArg (Ideal.div _) ?_
  refine (Cert.Lib.KeepdimsColumn.column_broadcast_at _ broadcasts_S1024x1_S1024x1024 r k).trans ?_
  rw [addf_apply]
  exact congrArg (· + Cert.Attn.eps) (shapeCast_1ab_ab_apply l shapeCasts_S1x1024x1_S1024x1 r 0)

/-- The fifth payload is the fourth viewed [1, 1024, 1024]. -/
theorem k1_pay5_at (x0 x1 : Vec Ideal S1x1024x64 .f32) (x3 : Vec Ideal S1x1024x1024 .f32) (l : Vec Ideal S1x1024x1 .f32)
    (r k : Fin 1024) :
    k1_pay5 (F := Ideal) x0 x1 x3 l (ix3 0 r k)
      = Ideal.div (Ideal.exp ((∑ d : Fin 64, x0 (ix3 0 r d) * x1 (ix3 0 k d)) * Cert.Attn.scale) * x3 (ix3 0 r k))
          (l (ix3 0 r 0) + Cert.Attn.eps) :=
  (shapeCast_ab_1ab_apply (k1_pay4 (F := Ideal) x0 x1 x3 l) shapeCasts_S1024x1024_S1x1024x1024 0 r k).trans
    (k1_pay4_at x0 x1 x3 l r k)

/-- The sixth payload is the value block viewed [1024, 64] (and narrowed: the identity). -/
theorem k1_pay6_at (v : Vec Ideal S1x1024x64 .f32) (k : Fin 1024) (d : Fin 64) :
    k1_pay6 (F := Ideal) v (ix2 k d) = v (ix3 0 k d) :=
  rows_at v k d

/-- The first payload, without its identity cast: the scratch plus the product of the weights and the values. -/
theorem k1_pay1_eq (a : FVec Ideal S1024x1024 .f32) (w : FVec Ideal S1024x64 .bf16) (s : Vec Ideal S1024x64 .f32) :
    k1_pay1 (F := Ideal) a w s
      = addf s (matmul dot_S1024x1024_S1024x64_S1024x64_1_0_0_1_n_n none
          (truncf .bf16 a bitsLt_bf16_f32 : FVec Ideal S1024x1024 .bf16) w
          (constant (F := Ideal) S1024x64 .f32 0x00000000#32)) :=
  shapeCast_self _ shapeCasts_S1024x64_S1024x64

/-- The first payload at (r, d): the scratch's entry plus the sum over the block's keys of weight times value. -/
theorem k1_pay1_at (a : FVec Ideal S1024x1024 .f32) (w : FVec Ideal S1024x64 .bf16) (s : Vec Ideal S1024x64 .f32)
    (r : Fin 1024) (d : Fin 64) :
    k1_pay1 (F := Ideal) a w s (ix2 r d) = s (ix2 r d) + ∑ k : Fin 1024, a (ix2 r k) * w (ix2 k d) := by
  rw [k1_pay1_eq, addf_apply]
  exact congrArg (s (ix2 r d) + ·) (dotAV_at _ w r d)

/-- The second payload is the scratch viewed [1, 1024, 64]. -/
theorem k1_pay2_at (v : Vec Ideal S1024x64 .f32) (r : Fin 1024) (d : Fin 64) :
    k1_pay2 (F := Ideal) v (ix3 0 r d) = v (ix2 r d) :=
  shapeCast_ab_1ab_apply v shapeCasts_S1024x64_S1x1024x64 0 r d

end Cert.KernelIdeal.PayIdx

end
-- ==== Proof.KI.Val1Attn.lean ====
/-
  The attention call's weights array after the run. Every point writes back its [1, 1024, 1024] tile of normalised
  weights; tile (bh, qb, kb) at (r, s) is the weight of key kb·1024 + s for query qb·1024 + r of head row bh, over that
  row's sum plus ε; the 192 tiles cover the [48, 2048, 2048] array.
-/
import proofs.«146835_j764504179346_1_alg».proof.Proof.KI.Val1Blocks
import proofs.«146835_j764504179346_1_alg».proof.Proof.KI.R1Pieces
import proofs.«146835_j764504179346_1_alg».proof.Proof.PayIdx1

set_option maxRecDepth 16384

noncomputable section

namespace Cert.KernelIdeal.Fr

open Cert.KernelIdeal Cert.KernelIdeal.Gen Cert.KernelIdeal.PayIdx
open Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b))

/-- What a point leaves in the weights window's buffer, whichever case it is. -/
theorem after1_5_eq (c : Dev nD) (t : Fin cfg1.N) :
    (outsAt1 V c t.val t.isLt).1
      = k1_pay5 (F := Ideal) (iblk1 V c 0 t) (iblk1 V c 1 t) (iblk1 V c 3 t) (iblk1 V c 4 t) := by
  by_cases h0 : t.val % 2 = 0
  · have h1 : ¬t.val % 2 = 1 := by omega
    rw [outsAt1_A V c t h0 h1]
    dsimp only
    exact out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
  · have h1 : t.val % 2 = 1 := by omega
    rw [outsAt1_B V c t h0 h1]
    dsimp only
    exact out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _

/-- What point t writes back is its tile of the normalised weights. -/
theorem flushed1_5_eq (c : Dev nD) (t : Fin cfg1.N) :
    (dat1 (F := Ideal) V c).flushed 5 t
      = ((cfg1.win 5).blk t).view.read (Elt Ideal) (attn3 (V c main_v0) (V c main_v1) (V c main_v3) (V c main_v4)) := by
  have hN := point1_lt t
  obtain ⟨e0, e1, e2, -⟩ := idx_facts1_out t
  show (cfg1.win 5).cut (grid1.coords t) ((dat1 (F := Ideal) V c).after 5 t) = _
  rw [after1_5, after1_5_eq]
  funext y
  obtain ⟨u, r, s, rfl⟩ : ∃ (u : Fin 1) (r s : Fin 1024), y = ix3 u r s := ⟨y 0, y 1, y 2, eq_ix3 y⟩
  obtain rfl : u = 0 := Subsingleton.elim _ _
  rw [View.read_apply]
  show k1_pay5 (F := Ideal) (iblk1 V c 0 t) (iblk1 V c 1 t) (iblk1 V c 3 t) (iblk1 V c 4 t) (ix3 0 r s)
    = attn3 (V c main_v0) (V c main_v1) (V c main_v3) (V c main_v4) (((cfg1.win 5).blk t).view.emb (ix3 0 r s))
  have he : ((cfg1.win 5).blk t).view.emb (ix3 0 r s)
      = ix3 (⟨t.val / 4, by omega⟩ : Fin 48) (⟨(t.val / 2 % 2) * 1024 + r.val, by have := r.isLt; omega⟩ : Fin 2048)
          (⟨(t.val % 2) * 1024 + s.val, by have := s.isLt; omega⟩ : Fin 2048) :=
    funext fun a => Fin.ext (by
      match a with
      | ⟨0, _⟩ => show win1_5.index t (0 : Fin 3) * 1 + 1 * 0 = t.val / 4; omega
      | ⟨1, _⟩ => show win1_5.index t (1 : Fin 3) * 1024 + 1 * r.val = (t.val / 2 % 2) * 1024 + r.val; omega
      | ⟨2, _⟩ => show win1_5.index t (2 : Fin 3) * 1024 + 1 * s.val = (t.val % 2) * 1024 + s.val; omega)
  rw [he]
  refine (k1_pay5_at (iblk1 V c 0 t) (iblk1 V c 1 t) (iblk1 V c 3 t) (iblk1 V c 4 t) r s).trans ?_
  exact tile1_val (V c main_v0) (V c main_v1) (V c main_v3) (V c main_v4) (iblk1 V c 0 t) (iblk1 V c 1 t) (iblk1 V c 3 t) (iblk1 V c 4 t)
    ⟨t.val / 4, by omega⟩ ⟨(t.val / 2 % 2) * 1024 + r.val, by have := r.isLt; omega⟩ ⟨(t.val % 2) * 1024 + s.val, by have := s.isLt; omega⟩ r s
    (fun d => qblk1_at V c t _ _ r d rfl rfl) (fun d => kblk1_at V c t _ _ s d rfl rfl)
    (mblk1_at V c t _ _ _ r s (by show t.val / 4 / 12 = t.val / 48; omega) rfl rfl) (lblk1_at V c t _ _ r rfl rfl)

/-- An index of the weights array is in point t's tile iff each coordinate is in the tile's range on its axis. -/
theorem mem_blk1_5 (t : Fin cfg1.N) (i : S48x2048x2048.Idx) :
    i ∈ ((cfg1.win 5).blk t).view.set
      ↔ ∀ a : Fin 3, win1_5.index t a * S1x1024x1024.size a ≤ (i a).val
          ∧ (i a).val < win1_5.index t a * S1x1024x1024.size a + S1x1024x1024.size a := by
  show i ∈ ((View.whole main_v5_0).slice (win1_5.rect t)).set ↔ _
  rw [View.set_slice_whole, Rect.mem_set_unit]
  exact Iff.rfl

/-- Every index of the weights array is in some point's tile: (bh, q, k) in that of point 4·bh + 2·(q / 1024) + k / 1024. -/
theorem cover1_5_all (i : S48x2048x2048.Idx) :
    ∃ t : Fin cfg1.N, (cfg1.win 5).flush t = true ∧ i ∈ ((cfg1.win 5).blk t).view.set := by
  have h0 : (i 0).val < 48 := (i 0).isLt
  have h1 : (i 1).val < 2048 := (i 1).isLt
  have h2 : (i 2).val < 2048 := (i 2).isLt
  have hlt : (i 0).val * 4 + (i 1).val / 1024 * 2 + (i 2).val / 1024 < cfg1.N := by
    rw [show cfg1.N = 192 from N_1]; omega
  refine ⟨⟨(i 0).val * 4 + (i 1).val / 1024 * 2 + (i 2).val / 1024, hlt⟩, flush1_5 _, ?_⟩
  rw [mem_blk1_5]
  obtain ⟨e0, e1, e2, -⟩ := idx_facts1_out ⟨(i 0).val * 4 + (i 1).val / 1024 * 2 + (i 2).val / 1024, hlt⟩
  dsimp only at e0 e1 e2
  intro a
  match a with
  | ⟨0, _⟩ =>
    show win1_5.index _ (0 : Fin 3) * 1 ≤ (i 0).val ∧ (i 0).val < win1_5.index _ (0 : Fin 3) * 1 + 1
    rw [e0]; omega
  | ⟨1, _⟩ =>
    show win1_5.index _ (1 : Fin 3) * 1024 ≤ (i 1).val ∧ (i 1).val < win1_5.index _ (1 : Fin 3) * 1024 + 1024
    rw [e1]; omega
  | ⟨2, _⟩ =>
    show win1_5.index _ (2 : Fin 3) * 1024 ≤ (i 2).val ∧ (i 2).val < win1_5.index _ (2 : Fin 3) * 1024 + 1024
    rw [e2]; omega

/-- The weights array after the run: the normalised weights of the arrays the call is entered with. -/
theorem final1_5 (c : Dev nD) :
    (dat1 (F := Ideal) V c).arrAt 5 cfg1.N = attn3 (V c main_v0) (V c main_v1) (V c main_v3) (V c main_v4) :=
  (dat1 (F := Ideal) V c).arrAt_eq_of_cover 5 (attn3 (V c main_v0) (V c main_v1) (V c main_v3) (V c main_v4))
    (fun t _ => flushed1_5_eq V c t) (cover1_5_all)

end

end Cert.KernelIdeal.Fr

end
-- ==== Proof.KI.Val1Ctx.lean ====
/-
  The attention call's context array after the run, as one function of the arrays the call is entered with.

  The call runs over the 48 × 2 × 2 grid (head-row bh, query block qb, key block kb, the key block fastest), point
  t = 4·bh + 2·qb + kb. At an even point (kb = 0) the accumulator is cleared and receives, for each of the block's 1024
  query rows and 64 features, the sum over the first 1024 keys of the normalised weight times the value; at the odd
  point that follows (kb = 1) the sum over the last 1024 keys is added and the result is written back as block
  (bh, qb) of the [48, 2048, 64] context array. The query block and the row-sum block do not depend on the key block,
  so both points normalise by the same row sums. A sum over 2048 keys is the sum over its two halves, so each written
  block is its block of Σ_k attn(bh, q, k) · V(bh, k, d), and the blocks written at the odd points tile the array.
-/
import proofs.«146835_j764504179346_1_alg».proof.Proof.KI.Val1Blocks
import proofs.«146835_j764504179346_1_alg».proof.Proof.KI.R1Pieces
import proofs.«146835_j764504179346_1_alg».proof.Proof.KI.ValDefs
import proofs.«146835_j764504179346_1_alg».proof.Proof.PayIdx1
import proofs.«146835_j764504179346_1_alg».proof.Proof.SplitSum
import Idealize.ShloMosaic.Lib.Pipeline.Value

set_option maxRecDepth 16384

noncomputable section

namespace Cert.KernelIdeal.Fr

open Cert.KernelIdeal Cert.KernelIdeal.Gen Cert.KernelIdeal.PayIdx
open Idealize.ShloMosaic Idealize.ShloMosaic.TcCoe Idealize.ShloMosaic.ValueIdx
open Idealize.SL.Sem
open Idealize.ShloMosaic.Pipeline (Dat)

/-- The body's context result over two key blocks of one query block, at (row r, feature d): the first block's
    normalised weights times its values, summed over its keys, plus the second block's. -/
theorem ctx_two_blocks (q0 k0 v0 q1 k1 v1 : Vec Ideal S1x1024x64 .f32) (m0 m1 : Vec Ideal S1x1024x1024 .f32)
    (l0 l1 : Vec Ideal S1x1024x1 .f32) (u : Fin 1) (r : Fin 1024) (d : Fin 64) :
    k1_pay2 (F := Ideal) (k1_pay1 (F := Ideal) (k1_pay4 (F := Ideal) q1 k1 m1 l1) (k1_pay6 (F := Ideal) v1)
        (k1_pay1 (F := Ideal) (k1_pay4 (F := Ideal) q0 k0 m0 l0) (k1_pay6 (F := Ideal) v0) (k1_pay3 (F := Ideal)))) (ix3 u r d)
      = (∑ k : Fin 1024,
          Ideal.div (Ideal.exp ((∑ e : Fin 64, q0 (ix3 0 r e) * k0 (ix3 0 k e)) * Cert.Attn.scale) * m0 (ix3 0 r k))
            (l0 (ix3 0 r 0) + Cert.Attn.eps) * v0 (ix3 0 k d))
        + ∑ k : Fin 1024,
          Ideal.div (Ideal.exp ((∑ e : Fin 64, q1 (ix3 0 r e) * k1 (ix3 0 k e)) * Cert.Attn.scale) * m1 (ix3 0 r k))
            (l1 (ix3 0 r 0) + Cert.Attn.eps) * v1 (ix3 0 k d) := by
  obtain rfl : u = 0 := Subsingleton.elim _ _
  rw [k1_pay2_at, k1_pay1_at, k1_pay1_at, k1_pay3_at, zero_add]
  refine congr (congrArg HAdd.hAdd ?_) ?_
  · exact Finset.sum_congr rfl fun k _ => by rw [k1_pay4_at, k1_pay6_at]
  · exact Finset.sum_congr rfl fun k _ => by rw [k1_pay4_at, k1_pay6_at]

/-- One block's contribution to the context at (row r, feature d), when the block's entries are the arrays' at
    head-row bh, query q and the keys half k: the arrays' normalised weights times values, summed over those keys. -/
theorem blockctx_of (Q K Vv : S48x2048x64.Idx → EReal) (M : S4x2048x2048.Idx → EReal) (L : S48x2048x1.Idx → EReal)
    (x0 x1 x2 : Vec Ideal S1x1024x64 .f32) (x3 : Vec Ideal S1x1024x1024 .f32) (x4 : Vec Ideal S1x1024x1 .f32)
    (bh : Fin 48) (q : Fin 2048) (r : Fin 1024) (d : Fin 64) (half : Fin 1024 → Fin 2048)
    (h0 : ∀ e, x0 (ix3 0 r e) = Q (ix3 bh q e)) (h1 : ∀ k e, x1 (ix3 0 k e) = K (ix3 bh (half k) e))
    (h2 : ∀ k, x2 (ix3 0 k d) = Vv (ix3 bh (half k) d))
    (h3 : ∀ k, x3 (ix3 0 r k) = M (ix3 (batchOf bh) q (half k))) (h4 : x4 (ix3 0 r 0) = L (ix3 bh q (0 : Fin 1))) :
    (∑ k : Fin 1024,
        Ideal.div (Ideal.exp ((∑ e : Fin 64, x0 (ix3 0 r e) * x1 (ix3 0 k e)) * Cert.Attn.scale) * x3 (ix3 0 r k))
          (x4 (ix3 0 r 0) + Cert.Attn.eps) * x2 (ix3 0 k d))
      = ∑ k : Fin 1024, attn3 Q K M L (ix3 bh q (half k)) * Vv (ix3 bh (half k) d) := by
  refine Finset.sum_congr rfl fun k _ => ?_
  rw [h2 k, h3 k, h4]
  show _ = Ideal.div (w3 Q K M bh q (half k)) (L (ix3 bh q (0 : Fin 1)) + Cert.Attn.eps) * Vv (ix3 bh (half k) d)
  unfold w3
  refine congrArg (fun x => Ideal.div (Ideal.exp (x * Cert.Attn.scale) * _) _ * _) ?_
  exact Finset.sum_congr rfl fun e _ => by rw [h0 e, h1 k e]

section
variable (V : (c : Dev nD) → (b : Ref sig .tc) → Buf (Elt Ideal) ((c : Thread nD τ).loc b))

/-- The five input blocks at point t, at their literal vector types. -/
abbrev qB1 (c : Dev nD) (t : Fin cfg1.N) : Vec Ideal S1x1024x64 .f32 := iblk1 V c 0 t
abbrev kB1 (c : Dev nD) (t : Fin cfg1.N) : Vec Ideal S1x1024x64 .f32 := iblk1 V c 1 t
abbrev vB1 (c : Dev nD) (t : Fin cfg1.N) : Vec Ideal S1x1024x64 .f32 := iblk1 V c 2 t
abbrev mB1 (c : Dev nD) (t : Fin cfg1.N) : Vec Ideal S1x1024x1024 .f32 := iblk1 V c 3 t
abbrev lB1 (c : Dev nD) (t : Fin cfg1.N) : Vec Ideal S1x1024x1 .f32 := iblk1 V c 4 t

/-- One point's contribution to the context at (row r, feature d): the arrays' normalised weights times values,
    summed over that point's half of the keys. -/
theorem blockctx_at (c : Dev nD) (t : Fin cfg1.N) (bh : Fin 48) (q : Fin 2048) (r : Fin 1024) (d : Fin 64)
    (half : Fin 1024 → Fin 2048)
    (hbh : bh.val = t.val / 4) (hq : q.val = (t.val / 2 % 2) * 1024 + r.val)
    (hh : ∀ k, (half k).val = (t.val % 2) * 1024 + k.val) :
    (∑ k : Fin 1024,
        Ideal.div (Ideal.exp ((∑ e : Fin 64, qB1 V c t (ix3 0 r e) * kB1 V c t (ix3 0 k e)) * Cert.Attn.scale)
            * mB1 V c t (ix3 0 r k))
          (lB1 V c t (ix3 0 r 0) + Cert.Attn.eps) * vB1 V c t (ix3 0 k d))
      = ∑ k : Fin 1024, attn3 (V c main_v0) (V c main_v1) (V c main_v3) (V c main_v4) (ix3 bh q (half k))
          * V c main_v2 (ix3 bh (half k) d) :=
  blockctx_of (V c main_v0) (V c main_v1) (V c main_v2) (V c main_v3) (V c main_v4)
    (qB1 V c t) (kB1 V c t) (vB1 V c t) (mB1 V c t) (lB1 V c t) bh q r d half
    (fun e => qblk1_at V c t bh q r e hbh hq) (fun k e => kblk1_at V c t bh (half k) k e hbh (hh k))
    (fun k => vblk1_at V c t bh (half k) k d hbh (hh k))
    (fun k => mblk1_at V c t (batchOf bh) q (half k) r k (by show bh.val / 12 = t.val / 48; omega) hq (hh k))
    (lblk1_at V c t bh q r hbh hq)

/-- After an even point the accumulator holds that point's contribution added to the zero matrix. -/
theorem acc_after_even1 (c : Dev nD) (n : ℕ) (hn : n < cfg1.N) (h0 : n % 2 = 0) :
    (outsAt1 V c n hn).2.2
      = k1_pay1 (F := Ideal) (k1_pay4 (F := Ideal) (qB1 V c ⟨n, hn⟩) (kB1 V c ⟨n, hn⟩) (mB1 V c ⟨n, hn⟩) (lB1 V c ⟨n, hn⟩))
          (k1_pay6 (F := Ideal) (vB1 V c ⟨n, hn⟩)) (k1_pay3 (F := Ideal)) := by
  have h1 : ¬n % 2 = 1 := by omega
  show (outsAt1 V c (⟨n, hn⟩ : Fin cfg1.N).val (⟨n, hn⟩ : Fin cfg1.N).isLt).2.2 = _
  rw [outsAt1_A V c ⟨n, hn⟩ h0 h1]
  dsimp only
  rw [sout1_A_0_eq]

/-- After an odd point the context window's buffer holds, reshaped, the sum of the two key blocks' contributions. -/
theorem out_after_odd1 (c : Dev nD) (t : Fin cfg1.N) (h1 : t.val % 2 = 1) (hp : t.val - 1 < cfg1.N) :
    (dat1 (F := Ideal) V c).after 6 t
      = k1_pay2 (F := Ideal) (k1_pay1 (F := Ideal) (k1_pay4 (F := Ideal) (qB1 V c t) (kB1 V c t) (mB1 V c t) (lB1 V c t))
          (k1_pay6 (F := Ideal) (vB1 V c t))
          (k1_pay1 (F := Ideal)
            (k1_pay4 (F := Ideal) (qB1 V c ⟨t.val - 1, hp⟩) (kB1 V c ⟨t.val - 1, hp⟩) (mB1 V c ⟨t.val - 1, hp⟩) (lB1 V c ⟨t.val - 1, hp⟩))
            (k1_pay6 (F := Ideal) (vB1 V c ⟨t.val - 1, hp⟩)) (k1_pay3 (F := Ideal)))) := by
  have h0 : ¬t.val % 2 = 0 := by omega
  rw [after1_6, outsAt1_B V c t h0 h1]
  dsimp only
  rw [out1_B_6_eq, acc_after_even1 V c (t.val - 1) hp (by omega)]

/-- What an odd point writes back is its block of the context. -/
theorem flushed1_6_eq (c : Dev nD) (t : Fin cfg1.N) (hf : (cfg1.win 6).flush t = true) :
    (dat1 (F := Ideal) V c).flushed 6 t
      = ((cfg1.win 6).blk t).view.read (Elt Ideal)
          (ctx3 (V c main_v0) (V c main_v1) (V c main_v2) (V c main_v3) (V c main_v4)) := by
  have h1 : t.val % 2 = 1 := (flush1_6 t).mp hf
  have hN : t.val < 192 := point1_lt t
  have hp : t.val - 1 < cfg1.N := Nat.lt_of_le_of_lt (Nat.sub_le _ _) t.isLt
  obtain ⟨-, -, -, e0, e1, e2⟩ := idx_facts1_out t
  show (cfg1.win 6).cut (grid1.coords t) ((dat1 (F := Ideal) V c).after 6 t) = _
  rw [out_after_odd1 V c t h1 hp]
  funext y
  obtain ⟨u, r, d, rfl⟩ : ∃ (u : Fin 1) (r : Fin 1024) (d : Fin 64), y = ix3 u r d := ⟨y 0, y 1, y 2, eq_ix3 y⟩
  have hi : ((cfg1.win 6).blk t).view.emb (ix3 u r d)
      = ix3 (⟨t.val / 4, by omega⟩ : Fin 48) (⟨(t.val / 2 % 2) * 1024 + r.val, by have := r.isLt; omega⟩ : Fin 2048) d := by
    funext a
    apply Fin.ext
    match a with
    | ⟨0, _⟩ => show win1_6.index t (0 : Fin 3) * 1 + 1 * u.val = t.val / 4; have := u.isLt; omega
    | ⟨1, _⟩ => show win1_6.index t (1 : Fin 3) * 1024 + 1 * r.val = (t.val / 2 % 2) * 1024 + r.val; omega
    | ⟨2, _⟩ => show win1_6.index t (2 : Fin 3) * 64 + 1 * d.val = d.val; omega
  show k1_pay2 (F := Ideal) _ (ix3 u r d)
    = ctx3 (V c main_v0) (V c main_v1) (V c main_v2) (V c main_v3) (V c main_v4) (((cfg1.win 6).blk t).view.emb (ix3 u r d))
  rw [hi]
  refine (ctx_two_blocks _ _ _ _ _ _ _ _ _ _ u r d).trans ?_
  rw [blockctx_at V c ⟨t.val - 1, hp⟩ ⟨t.val / 4, by omega⟩ ⟨(t.val / 2 % 2) * 1024 + r.val, by have := r.isLt; omega⟩ r d Cert.Attn.loHalf
      (by show t.val / 4 = (t.val - 1) / 4; omega)
      (by show (t.val / 2 % 2) * 1024 + r.val = ((t.val - 1) / 2 % 2) * 1024 + r.val; omega)
      (fun k => by show k.val = ((t.val - 1) % 2) * 1024 + k.val; omega),
    blockctx_at V c t ⟨t.val / 4, by omega⟩ ⟨(t.val / 2 % 2) * 1024 + r.val, by have := r.isLt; omega⟩ r d Cert.Attn.hiHalf rfl rfl
      (fun k => by show 1024 + k.val = (t.val % 2) * 1024 + k.val; omega)]
  exact Eq.symm (Cert.Attn.sum_split_2048 (α := EReal) fun k : Fin 2048 =>
    attn3 (V c main_v0) (V c main_v1) (V c main_v3) (V c main_v4)
        (ix3 (⟨t.val / 4, by omega⟩ : Fin 48) (⟨(t.val / 2 % 2) * 1024 + r.val, by have := r.isLt; omega⟩ : Fin 2048) k)
      * V c main_v2 (ix3 (⟨t.val / 4, by omega⟩ : Fin 48) k d))

end

/-- An index of the context array is in point t's block iff each coordinate is in the block's range on its axis. -/
theorem mem_blk1_6 (t : Fin cfg1.N) (i : S48x2048x64.Idx) :
    i ∈ ((cfg1.win 6).blk t).view.set
      ↔ ∀ a : Fin 3, win1_6.index t a * S1x1024x64.size a ≤ (i a).val
          ∧ (i a).val < win1_6.index t a * S1x1024x64.size a + S1x1024x64.size a := by
  show i ∈ ((View.whole main_v5_1).slice (win1_6.rect t)).set ↔ _
  rw [View.set_slice_whole, Rect.mem_set_unit]
  exact Iff.rfl

/-- Every index of the context array is in the block some odd point writes back: row q of head-row bh in that of
    point 4·bh + 2·(q / 1024) + 1. -/
theorem cover1_6 (i : S48x2048x64.Idx) :
    ∃ t : Fin cfg1.N, (cfg1.win 6).flush t = true ∧ i ∈ ((cfg1.win 6).blk t).view.set := by
  have hN : cfg1.N = 192 := N_1
  have hi0 : (i 0).val < 48 := (i 0).isLt
  have hi1 : (i 1).val < 2048 := (i 1).isLt
  have hi2 : (i 2).val < 64 := (i 2).isLt
  refine ⟨⟨(i 0).val * 4 + (i 1).val / 1024 * 2 + 1, by omega⟩,
    (flush1_6 _).mpr (by show ((i 0).val * 4 + (i 1).val / 1024 * 2 + 1) % 2 = 1; omega), ?_⟩
  obtain ⟨-, -, -, e0, e1, e2⟩ := idx_facts1_out ⟨(i 0).val * 4 + (i 1).val / 1024 * 2 + 1, by omega⟩
  rw [mem_blk1_6]
  intro a
  match a with
  | ⟨0, _⟩ =>
    show win1_6.index _ (0 : Fin 3) * 1 ≤ (i 0).val ∧ (i 0).val < win1_6.index _ (0 : Fin 3) * 1 + 1
    rw [e0]
    show ((i 0).val * 4 + (i 1).val / 1024 * 2 + 1) / 4 * 1 ≤ (i 0).val
      ∧ (i 0).val < ((i 0).val * 4 + (i 1).val / 1024 * 2 + 1) / 4 * 1 + 1
    omega
  | ⟨1, _⟩ =>
    show win1_6.index _ (1 : Fin 3) * 1024 ≤ (i 1).val ∧ (i 1).val < win1_6.index _ (1 : Fin 3) * 1024 + 1024
    rw [e1]
    show ((i 0).val * 4 + (i 1).val / 1024 * 2 + 1) / 2 % 2 * 1024 ≤ (i 1).val
      ∧ (i 1).val < ((i 0).val * 4 + (i 1).val / 1024 * 2 + 1) / 2 % 2 * 1024 + 1024
    omega
  | ⟨2, _⟩ =>
    show win1_6.index _ (2 : Fin 3) * 64 ≤ (i 2).val ∧ (i 2).val < win1_6.index _ (2 : Fin 3) * 64 + 64
    rw [e2]; omega

section
variable (V : (c : Dev nD) → (b : Ref sig .tc) → Buf (Elt Ideal) ((c : Thread nD τ).loc b))

/-- The context array after the attention call: the context of the arrays the call was entered with, the row sums
    among them. -/
theorem final1_6 (c : Dev nD) :
    (dat1 (F := Ideal) V c).arrAt 6 cfg1.N
      = ctx3 (V c main_v0) (V c main_v1) (V c main_v2) (V c main_v3) (V c main_v4) :=
  (dat1 (F := Ideal) V c).arrAt_eq_of_cover 6 (ctx3 (V c main_v0) (V c main_v1) (V c main_v2) (V c main_v3) (V c main_v4))
    (fun t hf => flushed1_6_eq V c t hf) cover1_6

end

end Cert.KernelIdeal.Fr

end
-- ==== Proof.RefIsSpec.lean ====
/-
  The reference program's two results, read one operation at a time, are the specification's attention weights and
  context: each operation's element is read from its operands' elements, the layout operations' index functions are
  identified with coordinate indices, and the host sum's initial value is the zero word.
-/
import proofs.«146835_j764504179346_1_alg».proof.Proof.Gen.ReferenceIdeal.Read
import proofs.«146835_j764504179346_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The masked, unnormalised weight: the fifth operation at coordinates (b, h, q, k). -/
theorem ref_weight (Q K : (⟨S4x12x2048x64, .f32⟩ : BufTy).Contents (Elt Ideal))
    (M : (⟨S4x1x2048x2048, .f32⟩ : BufTy).Contents (Elt Ideal)) (b : Fin 4) (h : Fin 12) (q k : Fin 2048) :
    val_main_v5 (F := Ideal) Q K M (ix4 b h q k) = Cert.Attn.weight Q K M b h q k := by
  rw [val_main_v5_apply, val_main_v3_apply, val_main_v2_apply, val_main_v0_apply, val_main_v1_apply,
    val_main_cst_apply, val_main_v4_apply]
  simp only [Ideal.mulf_def, Ideal.hostUnary_exp_def, Ideal.ofBits_def]
  unfold Cert.Attn.weight Cert.Attn.scale
  have el : ∀ d : Fin 64, lidx_main_v0 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v0 (ix4 b h q k) d = ix4 b h k d := fun d => funext fun a => Fin.ext (by
    match a with | ⟨0, _⟩ => rfl | ⟨1, _⟩ => rfl | ⟨2, _⟩ => rfl | ⟨3, _⟩ => rfl)
  have em : idx_main_v4 (ix4 b h q k) = ix4 b (0 : Fin 1) q k := funext fun a => Fin.ext (by
    match a with | ⟨0, _⟩ => rfl | ⟨1, _⟩ => rfl | ⟨2, _⟩ => rfl | ⟨3, _⟩ => rfl)
  rw [em]
  simp only [el, er]

/-- The row sum: the reduction over the key axis at (b, h, q); its initial value is the zero word. -/
theorem ref_rowSum (Q K : (⟨S4x12x2048x64, .f32⟩ : BufTy).Contents (Elt Ideal))
    (M : (⟨S4x1x2048x2048, .f32⟩ : BufTy).Contents (Elt Ideal)) (b : Fin 4) (h : Fin 12) (q : Fin 2048) :
    val_main_v6 (F := Ideal) Q K M (ix3 b h q) = Cert.Attn.rowSum Q K M b h q := by
  rw [val_main_v6_apply, val_main_cst_0_apply, Ideal.ofBits_def, Ideal.ofBits_zero_f32, zero_add]
  unfold Cert.Attn.rowSum
  refine Finset.sum_congr rfl fun k _ => ?_
  have e : idx_main_v6 (ix3 b h q) k = ix4 b h q k := funext fun a => Fin.ext (by
    match a with | ⟨0, _⟩ => rfl | ⟨1, _⟩ => rfl | ⟨2, _⟩ => rfl | ⟨3, _⟩ => rfl)
  rw [e, ref_weight]

/-- The denominator: the row sum plus the offset, broadcast along the key axis. -/
theorem ref_denom (Q K : (⟨S4x12x2048x64, .f32⟩ : BufTy).Contents (Elt Ideal))
    (M : (⟨S4x1x2048x2048, .f32⟩ : BufTy).Contents (Elt Ideal)) (b : Fin 4) (h : Fin 12) (q k : Fin 2048) :
    val_main_v10 (F := Ideal) Q K M (ix4 b h q k) = Cert.Attn.rowSum Q K M b h q + Cert.Attn.eps := by
  rw [val_main_v10_apply, val_main_v9_apply, val_main_v7_apply, val_main_v8_apply, val_main_cst_1_apply,
    Ideal.addf_def, Ideal.ofBits_def]
  have e : idx_main_v7 (idx_main_v10 (ix4 b h q k)) = ix3 b h q := funext fun a => Fin.ext (by
    match a with | ⟨0, _⟩ => rfl | ⟨1, _⟩ => rfl | ⟨2, _⟩ => rfl)
  rw [e, ref_rowSum]
  rfl

/-- The reference's attention weights are the specification's. -/
theorem ref_attn (Q K : (⟨S4x12x2048x64, .f32⟩ : BufTy).Contents (Elt Ideal))
    (M : (⟨S4x1x2048x2048, .f32⟩ : BufTy).Contents (Elt Ideal)) :
    val_main_v11 (F := Ideal) Q K M = Cert.Attn.attn Q K M := by
  funext i
  obtain ⟨b, h, q, k, rfl⟩ : ∃ (b : Fin 4) (h : Fin 12) (q k : Fin 2048), i = ix4 b h q k :=
    ⟨i 0, i 1, i 2, i 3, eq_ix4 i⟩
  rw [val_main_v11_apply, ref_weight, ref_denom, Ideal.hostDivf_def]
  rfl

/-- The reference's context is the specification's. -/
theorem ref_ctx (Q K V : (⟨S4x12x2048x64, .f32⟩ : BufTy).Contents (Elt Ideal))
    (M : (⟨S4x1x2048x2048, .f32⟩ : BufTy).Contents (Elt Ideal)) :
    val_main_v12 (F := Ideal) Q K V M = Cert.Attn.ctx Q K V M := by
  funext i
  obtain ⟨b, h, q, d, rfl⟩ : ∃ (b : Fin 4) (h : Fin 12) (q : Fin 2048) (d : Fin 64), i = ix4 b h q d :=
    ⟨i 0, i 1, i 2, i 3, eq_ix4 i⟩
  rw [val_main_v12_apply, ref_attn]
  show _ = Cert.Attn.ctxAt Q K V M b h q d
  unfold Cert.Attn.ctxAt
  refine Finset.sum_congr rfl fun k _ => ?_
  have el : lidx_main_v12 (ix4 b h q d) k = ix4 b h q k := funext fun a => Fin.ext (by
    match a with | ⟨0, _⟩ => rfl | ⟨1, _⟩ => rfl | ⟨2, _⟩ => rfl | ⟨3, _⟩ => rfl)
  have er : ridx_main_v12 (ix4 b h q d) k = ix4 b h k d := funext fun a => Fin.ext (by
    match a with | ⟨0, _⟩ => rfl | ⟨1, _⟩ => rfl | ⟨2, _⟩ => rfl | ⟨3, _⟩ => rfl)
  rw [el, er]
  rfl

end Cert.ReferenceIdeal.RefValue

end
-- ==== Proof.lean ====
/-
  Scaled dot-product attention with a multiplicative mask and an unstabilised exponential, in two passes over key
  blocks, against the one-shot reference.

  Both programs compute, on the extended reals (Proof/Spec.lean):
    w = exp(Q·Kᵀ · 1/8) · M,   ℓ = Σ_k w,   attn = w / (ℓ + ε),   ctx = attn · V.
  The kernel program reshapes the inputs to 48 head rows, sums each query row's weights key block by key block into
  an accumulator (first call), then recomputes the weights, divides by the row sums and accumulates attn · V key block
  by key block (second call), and reshapes the results back. A sum over 2048 keys taken as two sums over 1024 is the
  same extended real (addition there is commutative and associative), a matrix product into a zero accumulator is the
  plain sum of products, and a change of float format is the identity, so the two programs' results are equal entry
  by entry; no finiteness of the inputs is used.

  The three frames: each kernel call is run point by point under an invariant that carries its accumulator at exactly
  what the previous point left (Proof/K, Proof/KI); the reference is a straight line of host operations. The ideal pass
  rewrote nothing, so the idealization claim is trivial.
-/
import proofs.«146835_j764504179346_1_alg».proof.Defs
import proofs.«146835_j764504179346_1_alg».proof.Proof.Gen.Kernel
import proofs.«146835_j764504179346_1_alg».proof.Proof.Gen.KernelIdeal
import proofs.«146835_j764504179346_1_alg».proof.Proof.Gen.ReferenceIdeal
import proofs.«146835_j764504179346_1_alg».proof.Proof.Gen.Pre_finite_inputs
import proofs.«146835_j764504179346_1_alg».proof.Proof.Gen.ReferenceIdeal.Run
import proofs.«146835_j764504179346_1_alg».proof.Proof.K.Run
import proofs.«146835_j764504179346_1_alg».proof.Proof.KI.Final
import proofs.«146835_j764504179346_1_alg».proof.Proof.KI.Val0
import proofs.«146835_j764504179346_1_alg».proof.Proof.KI.Val1Attn
import proofs.«146835_j764504179346_1_alg».proof.Proof.KI.Val1Ctx
import proofs.«146835_j764504179346_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's context and attention weights of the arguments, which agree. -/
theorem algebraic : Cert.algebraic_KernelIdeal_ReferenceIdeal := by
  intro m ρ m' ρ' _ hagree
  refine ⟨fun c => Cert.Attn.ctx (Cert.KernelIdeal.Fr.Qa m c) (Cert.KernelIdeal.Fr.Ka m c) (Cert.KernelIdeal.Fr.Va m c) (Cert.KernelIdeal.Fr.Ma m c),
    fun c => Cert.Attn.attn (Cert.KernelIdeal.Fr.Qa m c) (Cert.KernelIdeal.Fr.Ka m c) (Cert.KernelIdeal.Fr.Ma m c), ?_, ?_⟩
  · refine (θ_run Cert.KernelIdeal.defs _ _).mono (fun r h c => ?_) (Cert.KernelIdeal.Fr.run_all (F := Ideal) m ρ)
    exact ⟨(h c _ (Cert.KernelIdeal.Fr.mem_uc Cert.KernelIdeal.main_v6 (by decide))).trans
        (Cert.KernelIdeal.Fr.out_ctx m ρ Cert.KernelIdeal.Fr.final0_3 Cert.KernelIdeal.Fr.final1_6 c),
      (h c _ (Cert.KernelIdeal.Fr.mem_uc Cert.KernelIdeal.main_v7 (by decide))).trans
        (Cert.KernelIdeal.Fr.out_attn m ρ Cert.KernelIdeal.Fr.final0_3 Cert.KernelIdeal.Fr.final1_5 c),
      (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c)⟩
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v12_eq, Cert.ReferenceIdeal.RefValue.ref_ctx,
        (hagree c).1, (hagree c).2.1, (hagree c).2.2.1, (hagree c).2.2.2]
    · rw [(h c).2.1, Cert.ReferenceIdeal.Read.val_main_v11_eq, Cert.ReferenceIdeal.RefValue.ref_attn,
        (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
